-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S50000x1 : Shape := ⟨2, ![50000, 1]⟩
abbrev S850000x256 : Shape := ⟨2, ![850000, 256]⟩
abbrev S1x256 : Shape := ⟨2, ![1, 256]⟩
abbrev S256x128 : Shape := ⟨2, ![256, 128]⟩
abbrev S50000x128 : Shape := ⟨2, ![50000, 128]⟩
abbrev S2000x128 : Shape := ⟨2, ![2000, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 99
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x512, .bf16⟩
  | .hbm, ⟨28, _⟩ => ⟨S512x256, .bf16⟩
  | .hbm, ⟨29, _⟩ => ⟨S50000x256, .f32⟩
  | .hbm, ⟨30, _⟩ => ⟨S50000x1, .f32⟩
  | .hbm, ⟨31, _⟩ => ⟨S50000x256, .f32⟩
  | .hbm, ⟨32, _⟩ => ⟨S50000x256, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000x256, .f32⟩
  | .hbm, ⟨42, _⟩ => ⟨S_, .f32⟩
  | .hbm, ⟨43, _⟩ => ⟨S50000x256, .f32⟩
  | .hbm, ⟨44, _⟩ => ⟨S850000x1, .i32⟩
  | .hbm, ⟨45, _⟩ => ⟨S50000x256, .f32⟩
  | .hbm, ⟨46, _⟩ => ⟨S50000x1, .f32⟩
  | .hbm, ⟨47, _⟩ => ⟨S50000x256, .f32⟩
  | .hbm, ⟨48, _⟩ => ⟨S50000x256, .f32⟩
  | .hbm, ⟨49, _⟩ => ⟨S1x256, .f32⟩
  | .hbm, ⟨50, _⟩ => ⟨S50000x256, .f32⟩
  | .hbm, ⟨51, _⟩ => ⟨S50000x256, .f32⟩
  | .hbm, ⟨52, _⟩ => ⟨S_, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S_, .f32⟩
  | .hbm, ⟨57, _⟩ => ⟨S256x128, .f32⟩
  | .hbm, ⟨58, _⟩ => ⟨S50000x256, .bf16⟩
  | .hbm, ⟨59, _⟩ => ⟨S256x128, .bf16⟩
  | .hbm, ⟨60, _⟩ => ⟨S50000x128, .f32⟩
  | .hbm, ⟨61, _⟩ => ⟨S50000x64, .f32⟩
  | .hbm, ⟨62, _⟩ => ⟨S50000x1, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x64, .f32⟩
  | .hbm, ⟨74, _⟩ => ⟨S_, .f32⟩
  | .hbm, ⟨75, _⟩ => ⟨S50000x64, .f32⟩
  | .hbm, ⟨76, _⟩ => ⟨S850000x1, .i32⟩
  | .hbm, ⟨77, _⟩ => ⟨S50000x64, .f32⟩
  | .hbm, ⟨78, _⟩ => ⟨S50000x1, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S_, .f32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000, .f32⟩
  | .hbm, ⟨95, _⟩ => ⟨S50000x1, .f32⟩
  | .hbm, ⟨96, _⟩ => ⟨S50000x1, .f32⟩
  | .hbm, ⟨97, _⟩ => ⟨S50000x64, .f32⟩
  | .hbm, ⟨98, _⟩ => ⟨S50000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S256x128, .bf16⟩
  | .local _ .vmem, ⟨8, _⟩ => ⟨S2000x128, .f32⟩
  | .local _ .vmem, ⟨9, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_c_5 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call3_cst : Ref sig .tc := ⟨.hbm, 84, rfl⟩
abbrev main_call3_v0 : Ref sig .tc := ⟨.hbm, 85, rfl⟩
abbrev main_call3_cst_0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_cst_1 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_v62 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  pads_S256x64_S256x128_000_0640 : S256x64.Pads (![0, 0] : Fin 2 → Nat) ![0, 64] ![0, 0] S256x128
  h_S_ : 0 < S_.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S50000x128_S50000x64_0_0 : S50000x128.Slices ![0, 0] S50000x64
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  scatter_S50000_S850000x1_S850000_n_0_0_1_wf : ScatterDims.WF S50000 S850000x1 S850000 [] [0] [0] 1
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .bf16 = 32 ∨ (Rect.block (s := S256x128) S256x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v15) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S50000x256 : Shape := ⟨2, ![50000, 256]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x64, .f32⟩
  | 5 => ⟨S64, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x64, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x64, .f32⟩
  | 115 => ⟨S850000x1, .f32⟩
  | 116 => ⟨S850000x64, .f32⟩
  | 117 => ⟨S850000x64, .f32⟩
  | 118 => ⟨S_, .f32⟩
  | 119 => ⟨S50000x64, .f32⟩
  | 120 => ⟨S850000x1, .i32⟩
  | 121 => ⟨S50000x64, .f32⟩
  | 122 => ⟨S1x64, .f32⟩
  | 123 => ⟨S50000x64, .f32⟩
  | 124 => ⟨S50000x64, .f32⟩
  | 125 => ⟨S_, .f32⟩
  | 126 => ⟨S50000, .f32⟩
  | 127 => ⟨S_, .f32⟩
  | _ => ⟨S50000x512, .f32⟩

abbrev hbmTy0_1 (i : Nat) : BufTy := match i % 128 with
  | 0 => ⟨S50000, .f32⟩
  | 1 => ⟨S50000, .f32⟩
  | 2 => ⟨S50000x1, .f32⟩
  | 3 => ⟨S50000x64, .f32⟩
  | 4 => ⟨S50000x64, .f32⟩
  | 5 => ⟨S50000x64, .f32⟩
  | 6 => ⟨S_, .f32⟩
  | 7 => ⟨S50000, .f32⟩
  | 8 => ⟨S50000x1, .f32⟩
  | 9 => ⟨S50000x1, .f32⟩
  | 10 => ⟨S50000x64, .f32⟩
  | 11 => ⟨S50000x64, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
import proofs.«122016_j61864708932307_2_alg».proof.Proof.Gen.KernelIdeal.Frame

/-! # The kernel program's run, with its result named

The generated frame certificate states that every weakly fair execution of `@main` terminates without a fault and
leaves the argument arrays as launched.  Its last thread state holds EVERY unscoped buffer at the last boundary's
contents `Gen.W12`; here the same run is stated with one more component read off that state: the result buffer
`main_v62` holds `Gen.W12 m ρ c main_v62`. -/

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of `@main` on the TensorCores terminates, nothing
    faulting, and every final state has the result buffer at the last boundary's contents and the argument arrays as
    launched. -/
theorem run_value : θ_run defs (onTc (τ := τ) (main (F := F))) ⟨m, fun _ => 0, ρ⟩ (fun r => ∀ c : Dev nD,
      r.2.mem ((c.tc : Thread nD τ).loc main_v62) = Gen.W12 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v62 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

/-- info: 'Cert.KernelIdeal.RunV.run_value' depends on axioms: [propext, Classical.choice, Quot.sound] -/
#guard_msgs in #print axioms run_value

end Cert.KernelIdeal.RunV

end
-- ==== Proof.KernelWalkDefs.lean ====
import proofs.«122016_j61864708932307_2_alg».proof.Proof.Gen.KernelIdeal.Frame
import Idealize.ShloMosaic.PureOps.Ideal

/-! # The host stretches of the kernel program, as functions of the arrays they read

Each definition is the composition of the host operations of one stretch (or of consecutive stretches) of `@main`,
written over the arrays the stretch reads and nothing else, at the ideal (extended-real) semantics.  The graph has
50000 nodes and 800000 edges `ei`; a self-loop per node is appended, which gives 850000 edges. -/

set_option maxRecDepth 16384

noncomputable section

namespace Cert.KernelIdeal.Walk

open Idealize.ShloMosaic Idealize.ShloMosaic.TcCoe Idealize.ShloMosaic.Tactic
open Idealize.SL Idealize.SL.Sem
open Cert.KernelIdeal.Gen

/-! ## Before the first matrix product -/

/-- The edges' sources, the self-loops' appended: row 0 of the edge list, then `0, 1, …, 49999`. -/
def sT (ei : IVec S2x800000 32) : IVec S850000 32 :=
  concatenate S850000 0
    [⟨S800000, shapeCast S800000 (extractStridedSlice S1x800000 ![0, 0] ei slices_S2x800000_S1x800000_0_0)
        shapeCasts_S1x800000_S800000⟩,
      ⟨S50000, iotaInDim S50000 32 0⟩]
    concatenates_S800000_S50000_S850000_d0

/-- The edges' destinations, the self-loops' appended: row 1 of the edge list, then `0, 1, …, 49999`. -/
def dT (ei : IVec S2x800000 32) : IVec S850000 32 :=
  concatenate S850000 0
    [⟨S800000, shapeCast S800000 (extractStridedSlice S1x800000 ![1, 0] ei slices_S2x800000_S1x800000_1_0)
        shapeCasts_S1x800000_S800000⟩,
      ⟨S50000, iotaInDim S50000 32 0⟩]
    concatenates_S800000_S50000_S850000_d0

/-- Each node's in-degree, self-loop counted: ones scattered and added at the destinations. -/
def degT (ei : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dT ei))
    (broadcastInDim S850000 ![] bcast_S_S850000 (constant (F := Ideal) S_ .f32 0x3F800000#32))

/-- The inverse square root of the degree where the degree is positive, zero elsewhere. -/
def dinvT (ei : IVec S2x800000 32) : FVec Ideal S50000 .f32 :=
  select
    (cmpf .ogt (degT ei) (broadcastInDim S50000 ![] bcast_S_S50000 (constant (F := Ideal) S_ .f32 0x00000000#32)))
    (Host.rsqrt (F := Ideal) (degT ei))
    (broadcastInDim S50000 ![] bcast_S_S50000 (id (constant (F := Ideal) S_ .f32 0x00000000#32)))

/-! ## Between the two matrix products -/

/-- One normalised aggregation over the edges, 256 features wide: the rows scaled by `dinv`, gathered at the
    sources (a negative index wrapped once), scattered and added at the destinations, scaled by `dinv` again, the
    bias added. -/
def agg1T (A0 : FVec Ideal S50000x256 .f32) (dinv : FVec Ideal S50000 .f32) (s d : IVec S850000 32)
    (b1 : FVec Ideal S256 .f32) : FVec Ideal S50000x256 .f32 :=
  addf
    (mulf
      (broadcastInDim S50000x256 ![0, 1] bcast_S50000x1_S50000x256_0_1
        (broadcastInDim S50000x1 ![0] bcast_S50000_S50000x1_0 dinv))
      (Host.scatterAdd (F := Ideal) scatter_S50000x256_S850000x1_S850000x256_1_0_0_1
        (broadcastInDim S50000x256 ![] bcast_S_S50000x256 (constant (F := Ideal) S_ .f32 0x00000000#32))
        (broadcastInDim S850000x1 ![0] bcast_S850000_S850000x1_0 d)
        (Host.gather gather_S50000x256_S850000x1_S850000x256_1_0_n_n_0_1_1256
          (mulf A0
            (broadcastInDim S50000x256 ![0, 1] bcast_S50000x1_S50000x256_0_1
              (broadcastInDim S50000x1 ![0] bcast_S50000_S50000x1_0 dinv)))
          (broadcastInDim S850000x1 ![0] bcast_S850000_S850000x1_0
            (select
              (cmpi .slt s (broadcastInDim S850000 ![] bcast_S_S850000 (constantI S_ 32 0#32)))
              (addi s (broadcastInDim S850000 ![] bcast_S_S850000 (constantI S_ 32 50000#32)))
              s)))))
    (broadcastInDim S50000x256 ![0, 1] bcast_S1x256_S50000x256_0_1
      (broadcastInDim S1x256 ![1] bcast_S256_S1x256_1 b1))

/-- The first layer's output after its rectifier, from the first matrix product `A0`, the edge list and the bias. -/
def midT (A0 : FVec Ideal S50000x256 .f32) (ei : IVec S2x800000 32) (b1 : FVec Ideal S256 .f32) :
    FVec Ideal S50000x256 .f32 :=
  maximumf (agg1T A0 (dinvT ei) (sT ei) (dT ei) b1)
    (broadcastInDim S50000x256 ![] bcast_S_S50000x256 (constant (F := Ideal) S_ .f32 0x00000000#32))

/-- The second weight matrix padded with 64 columns of zeros on the right. -/
def padT (W2 : FVec Ideal S256x64 .f32) : FVec Ideal S256x128 .f32 :=
  pad S256x128 ![0, 0] ![0, 64] ![0, 0] W2 (sitofp .f32 (constantI S_ 32 0#32))
    pads_S256x64_S256x128_000_0640 h_S_

/-! ## After the second matrix product -/

/-- The same aggregation, 64 features wide, on the left 64 columns of the second matrix product `A1`. -/
def agg2T (A1 : FVec Ideal S50000x128 .f32) (dinv : FVec Ideal S50000 .f32) (s d : IVec S850000 32)
    (b2 : FVec Ideal S64 .f32) : FVec Ideal S50000x64 .f32 :=
  addf
    (mulf
      (broadcastInDim S50000x64 ![0, 1] bcast_S50000x1_S50000x64_0_1
        (broadcastInDim S50000x1 ![0] bcast_S50000_S50000x1_0 dinv))
      (Host.scatterAdd (F := Ideal) scatter_S50000x64_S850000x1_S850000x64_1_0_0_1
        (broadcastInDim S50000x64 ![] bcast_S_S50000x64 (constant (F := Ideal) S_ .f32 0x00000000#32))
        (broadcastInDim S850000x1 ![0] bcast_S850000_S850000x1_0 d)
        (Host.gather gather_S50000x64_S850000x1_S850000x64_1_0_n_n_0_1_164
          (mulf (extractStridedSlice S50000x64 ![0, 0] A1 slices_S50000x128_S50000x64_0_0)
            (broadcastInDim S50000x64 ![0, 1] bcast_S50000x1_S50000x64_0_1
              (broadcastInDim S50000x1 ![0] bcast_S50000_S50000x1_0 dinv)))
          (broadcastInDim S850000x1 ![0] bcast_S850000_S850000x1_0
            (select
              (cmpi .slt s (broadcastInDim S850000 ![] bcast_S_S850000 (constantI S_ 32 0#32)))
              (addi s (broadcastInDim S850000 ![] bcast_S_S850000 (constantI S_ 32 50000#32)))
              s)))))
    (broadcastInDim S50000x64 ![0, 1] bcast_S1x64_S50000x64_0_1
      (broadcastInDim S1x64 ![1] bcast_S64_S1x64_1 b2))

/-- Each row less its maximum (the maximum taken against minus infinity). -/
def shiftT (x : FVec Ideal S50000x64 .f32) : FVec Ideal S50000x64 .f32 :=
  subf x
    (broadcastInDim S50000x64 ![0, 1] bcast_S50000x1_S50000x64_0_1
      (broadcastInDim S50000x1 ![0] bcast_S50000_S50000x1_0
        (maximumf
          (broadcastInDim S50000 ![] bcast_S_S50000 (constant (F := Ideal) S_ .f32 0xFF800000#32))
          (Host.reduce (FloatOps.maximumf (F := Ideal)) x (constant (F := Ideal) S_ .f32 0xFF800000#32)
            reducesTo_S50000x64_S50000_d1 h_S_))))

/-- The logarithm of the softmax along each row: the shifted row less the logarithm of the sum of its exponentials. -/
def lsmT (x : FVec Ideal S50000x64 .f32) : FVec Ideal S50000x64 .f32 :=
  subf (shiftT x)
    (broadcastInDim S50000x64 ![0, 1] bcast_S50000x1_S50000x64_0_1
      (Host.log (F := Ideal)
        (broadcastInDim S50000x1 ![0] bcast_S50000_S50000x1_0
          (Host.reduceAdd (F := Ideal) (Host.exp (F := Ideal) (shiftT x)) (constant (F := Ideal) S_ .f32 0x00000000#32)
            reducesTo_S50000x64_S50000_d1 h_S_))))

/-- The program's result from the second matrix product `A1`, the edge list and the second bias. -/
def tailT (A1 : FVec Ideal S50000x128 .f32) (ei : IVec S2x800000 32) (b2 : FVec Ideal S64 .f32) :
    FVec Ideal S50000x64 .f32 :=
  lsmT (agg2T A1 (dinvT ei) (sT ei) (dT ei) b2)

end Cert.KernelIdeal.Walk

end
-- ==== Proof.KernelWalkKeep.lean ====
import proofs.«122016_j61864708932307_2_alg».proof.Proof.Gen.KernelIdeal.Frame
import Idealize.ShloMosaic.PureOps.Ideal
import Idealize.ShloMosaic.Lib.StableHlo.Run

/-! # The buffers a host stretch leaves alone

A stretch of host operations writes the result buffers of its operations and no other: at any other buffer the
contents after the stretch are the contents before it.  One lemma per stretch and buffer, for the buffers whose
contents are read again after a later stretch. -/

set_option maxRecDepth 16384

noncomputable section

namespace Cert.KernelIdeal.Walk

open Idealize.ShloMosaic Idealize.ShloMosaic.TcCoe Idealize.ShloMosaic.Tactic
open Idealize.SL Idealize.SL.Sem
open Cert.KernelIdeal.Gen

/-- The goal `StableHlo.after ops W b = W b` for a literal stretch `ops` none of whose operations writes `b`:
    the operations' written buffers are listed and each is told apart from `b` by comparing the references. -/
macro "not_written " ops:ident : tactic => `(tactic| (
  refine StableHlo.after_of_forall_not_mem _ _ (List.forall_iff_forall_mem.mp ?_)
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt Ideal))

/-! ## `main_v14` -/

theorem keep1_4_v14 : StableHlo.after (hostOps1_4 (F := Ideal)) W (Proc.devRef .tc main_v14) = W (Proc.devRef .tc main_v14) := by
  not_written hostOps1_4
theorem keep1_3_v14 : StableHlo.after (hostOps1_3 (F := Ideal)) W (Proc.devRef .tc main_v14) = W (Proc.devRef .tc main_v14) := by
  not_written hostOps1_3
theorem keep1_2_v14 : StableHlo.after (hostOps1_2 (F := Ideal)) W (Proc.devRef .tc main_v14) = W (Proc.devRef .tc main_v14) := by
  not_written hostOps1_2
theorem keep1_1_v14 : StableHlo.after (hostOps1_1 (F := Ideal)) W (Proc.devRef .tc main_v14) = W (Proc.devRef .tc main_v14) := by
  not_written hostOps1_1
theorem keep1_v14 : StableHlo.after (hostOps1 (F := Ideal)) W (Proc.devRef .tc main_v14) = W (Proc.devRef .tc main_v14) := by
  not_written hostOps1
theorem keep0_2_v14 : StableHlo.after (hostOps0_2 (F := Ideal)) W (Proc.devRef .tc main_v14) = W (Proc.devRef .tc main_v14) := by
  not_written hostOps0_2

/-! ## `main_v5` -/

theorem keep1_4_v5 : StableHlo.after (hostOps1_4 (F := Ideal)) W (Proc.devRef .tc main_v5) = W (Proc.devRef .tc main_v5) := by
  not_written hostOps1_4
theorem keep1_3_v5 : StableHlo.after (hostOps1_3 (F := Ideal)) W (Proc.devRef .tc main_v5) = W (Proc.devRef .tc main_v5) := by
  not_written hostOps1_3
theorem keep1_2_v5 : StableHlo.after (hostOps1_2 (F := Ideal)) W (Proc.devRef .tc main_v5) = W (Proc.devRef .tc main_v5) := by
  not_written hostOps1_2
theorem keep1_1_v5 : StableHlo.after (hostOps1_1 (F := Ideal)) W (Proc.devRef .tc main_v5) = W (Proc.devRef .tc main_v5) := by
  not_written hostOps1_1
theorem keep1_v5 : StableHlo.after (hostOps1 (F := Ideal)) W (Proc.devRef .tc main_v5) = W (Proc.devRef .tc main_v5) := by
  not_written hostOps1
theorem keep0_2_v5 : StableHlo.after (hostOps0_2 (F := Ideal)) W (Proc.devRef .tc main_v5) = W (Proc.devRef .tc main_v5) := by
  not_written hostOps0_2
theorem keep0_1_v5 : StableHlo.after (hostOps0_1 (F := Ideal)) W (Proc.devRef .tc main_v5) = W (Proc.devRef .tc main_v5) := by
  not_written hostOps0_1

/-! ## `main_v6` -/

theorem keep1_4_v6 : StableHlo.after (hostOps1_4 (F := Ideal)) W (Proc.devRef .tc main_v6) = W (Proc.devRef .tc main_v6) := by
  not_written hostOps1_4
theorem keep1_3_v6 : StableHlo.after (hostOps1_3 (F := Ideal)) W (Proc.devRef .tc main_v6) = W (Proc.devRef .tc main_v6) := by
  not_written hostOps1_3
theorem keep1_2_v6 : StableHlo.after (hostOps1_2 (F := Ideal)) W (Proc.devRef .tc main_v6) = W (Proc.devRef .tc main_v6) := by
  not_written hostOps1_2
theorem keep1_1_v6 : StableHlo.after (hostOps1_1 (F := Ideal)) W (Proc.devRef .tc main_v6) = W (Proc.devRef .tc main_v6) := by
  not_written hostOps1_1
theorem keep1_v6 : StableHlo.after (hostOps1 (F := Ideal)) W (Proc.devRef .tc main_v6) = W (Proc.devRef .tc main_v6) := by
  not_written hostOps1
theorem keep0_2_v6 : StableHlo.after (hostOps0_2 (F := Ideal)) W (Proc.devRef .tc main_v6) = W (Proc.devRef .tc main_v6) := by
  not_written hostOps0_2
theorem keep0_1_v6 : StableHlo.after (hostOps0_1 (F := Ideal)) W (Proc.devRef .tc main_v6) = W (Proc.devRef .tc main_v6) := by
  not_written hostOps0_1

/-! ## `main_arg5` -/

theorem keep1_4_arg5 : StableHlo.after (hostOps1_4 (F := Ideal)) W (Proc.devRef .tc main_arg5) = W (Proc.devRef .tc main_arg5) := by
  not_written hostOps1_4
theorem keep1_3_arg5 : StableHlo.after (hostOps1_3 (F := Ideal)) W (Proc.devRef .tc main_arg5) = W (Proc.devRef .tc main_arg5) := by
  not_written hostOps1_3
theorem keep1_2_arg5 : StableHlo.after (hostOps1_2 (F := Ideal)) W (Proc.devRef .tc main_arg5) = W (Proc.devRef .tc main_arg5) := by
  not_written hostOps1_2
theorem keep1_1_arg5 : StableHlo.after (hostOps1_1 (F := Ideal)) W (Proc.devRef .tc main_arg5) = W (Proc.devRef .tc main_arg5) := by
  not_written hostOps1_1
theorem keep1_arg5 : StableHlo.after (hostOps1 (F := Ideal)) W (Proc.devRef .tc main_arg5) = W (Proc.devRef .tc main_arg5) := by
  not_written hostOps1
theorem keep0_2_arg5 : StableHlo.after (hostOps0_2 (F := Ideal)) W (Proc.devRef .tc main_arg5) = W (Proc.devRef .tc main_arg5) := by
  not_written hostOps0_2
theorem keep0_1_arg5 : StableHlo.after (hostOps0_1 (F := Ideal)) W (Proc.devRef .tc main_arg5) = W (Proc.devRef .tc main_arg5) := by
  not_written hostOps0_1
theorem keep0_arg5 : StableHlo.after (hostOps0 (F := Ideal)) W (Proc.devRef .tc main_arg5) = W (Proc.devRef .tc main_arg5) := by
  not_written hostOps0

/-! ## `main_arg3` -/

theorem keep0_2_arg3 : StableHlo.after (hostOps0_2 (F := Ideal)) W (Proc.devRef .tc main_arg3) = W (Proc.devRef .tc main_arg3) := by
  not_written hostOps0_2
theorem keep0_1_arg3 : StableHlo.after (hostOps0_1 (F := Ideal)) W (Proc.devRef .tc main_arg3) = W (Proc.devRef .tc main_arg3) := by
  not_written hostOps0_1
theorem keep0_arg3 : StableHlo.after (hostOps0 (F := Ideal)) W (Proc.devRef .tc main_arg3) = W (Proc.devRef .tc main_arg3) := by
  not_written hostOps0

/-! ## `main_arg4` -/

theorem keep1_2_arg4 : StableHlo.after (hostOps1_2 (F := Ideal)) W (Proc.devRef .tc main_arg4) = W (Proc.devRef .tc main_arg4) := by
  not_written hostOps1_2
theorem keep1_1_arg4 : StableHlo.after (hostOps1_1 (F := Ideal)) W (Proc.devRef .tc main_arg4) = W (Proc.devRef .tc main_arg4) := by
  not_written hostOps1_1
theorem keep1_arg4 : StableHlo.after (hostOps1 (F := Ideal)) W (Proc.devRef .tc main_arg4) = W (Proc.devRef .tc main_arg4) := by
  not_written hostOps1
theorem keep0_2_arg4 : StableHlo.after (hostOps0_2 (F := Ideal)) W (Proc.devRef .tc main_arg4) = W (Proc.devRef .tc main_arg4) := by
  not_written hostOps0_2
theorem keep0_1_arg4 : StableHlo.after (hostOps0_1 (F := Ideal)) W (Proc.devRef .tc main_arg4) = W (Proc.devRef .tc main_arg4) := by
  not_written hostOps0_1
theorem keep0_arg4 : StableHlo.after (hostOps0 (F := Ideal)) W (Proc.devRef .tc main_arg4) = W (Proc.devRef .tc main_arg4) := by
  not_written hostOps0

/-! ## `main_arg0` -/

theorem keep0_1_arg0 : StableHlo.after (hostOps0_1 (F := Ideal)) W (Proc.devRef .tc main_arg0) = W (Proc.devRef .tc main_arg0) := by
  not_written hostOps0_1
theorem keep0_arg0 : StableHlo.after (hostOps0 (F := Ideal)) W (Proc.devRef .tc main_arg0) = W (Proc.devRef .tc main_arg0) := by
  not_written hostOps0

/-! ## `main_arg2` -/

theorem keep0_1_arg2 : StableHlo.after (hostOps0_1 (F := Ideal)) W (Proc.devRef .tc main_arg2) = W (Proc.devRef .tc main_arg2) := by
  not_written hostOps0_1
theorem keep0_arg2 : StableHlo.after (hostOps0 (F := Ideal)) W (Proc.devRef .tc main_arg2) = W (Proc.devRef .tc main_arg2) := by
  not_written hostOps0

/-! ## `main_v37` -/

theorem keep1_3_v37 : StableHlo.after (hostOps1_3 (F := Ideal)) W (Proc.devRef .tc main_v37) = W (Proc.devRef .tc main_v37) := by
  not_written hostOps1_3
theorem keep1_2_v37 : StableHlo.after (hostOps1_2 (F := Ideal)) W (Proc.devRef .tc main_v37) = W (Proc.devRef .tc main_v37) := by
  not_written hostOps1_2

end Cert.KernelIdeal.Walk

end
-- ==== Proof.KernelWalkStretchA.lean ====
import proofs.«122016_j61864708932307_2_alg».proof.Proof.KernelWalkDefs
import Idealize.ShloMosaic.Lib.StableHlo.Run

/-! # What each short host stretch leaves in its result buffers

For a stretch of host operations and any contents `W` of the buffers before it, the contents of a result buffer
after the stretch: the operations' functions composed, over `W` at the buffers the stretch reads. -/

set_option maxRecDepth 16384

noncomputable section

namespace Cert.KernelIdeal.Walk

open Idealize.ShloMosaic Idealize.ShloMosaic.TcCoe Idealize.ShloMosaic.Tactic
open Idealize.SL Idealize.SL.Sem
open Cert.KernelIdeal.Gen

variable (W : Valuation τ sig (Elt Ideal))

/-! ## The stretch before the degree's selection -/

theorem run0_v5 : StableHlo.after (hostOps0 (F := Ideal)) W (Proc.devRef .tc main_v5) = sT (W (Proc.devRef .tc main_arg1)) := by
  after_results_simp
  rfl

theorem run0_v6 : StableHlo.after (hostOps0 (F := Ideal)) W (Proc.devRef .tc main_v6) = dT (W (Proc.devRef .tc main_arg1)) := by
  after_results_simp
  rfl

theorem run0_v12 : StableHlo.after (hostOps0 (F := Ideal)) W (Proc.devRef .tc main_v12)
    = cmpf .ogt (degT (W (Proc.devRef .tc main_arg1))) (broadcastInDim S50000 ![] bcast_S_S50000 (constant (F := Ideal) S_ .f32 0x00000000#32)) := by
  after_results_simp
  rfl

theorem run0_v13 : StableHlo.after (hostOps0 (F := Ideal)) W (Proc.devRef .tc main_v13)
    = Host.rsqrt (F := Ideal) (degT (W (Proc.devRef .tc main_arg1))) := by
  after_results_simp
  rfl

theorem run0_cst_2 : StableHlo.after (hostOps0 (F := Ideal)) W (Proc.devRef .tc main_cst_2)
    = constant (F := Ideal) S_ .f32 0x00000000#32 := by
  after_results_simp

/-! ## The selection -/

theorem run0_1_v14 : StableHlo.after (hostOps0_1 (F := Ideal)) W (Proc.devRef .tc main_v14)
    = select (W (Proc.devRef .tc main_v12)) (W (Proc.devRef .tc main_v13))
        (broadcastInDim S50000 ![] bcast_S_S50000 (id (W (Proc.devRef .tc main_cst_2)))) := by
  after_results
  rfl

/-! ## The two roundings before the first matrix product -/

theorem run0_2_v15 : StableHlo.after (hostOps0_2 (F := Ideal)) W (Proc.devRef .tc main_v15)
    = (truncf (F := Ideal) .bf16 (W (Proc.devRef .tc main_arg0) : FVec Ideal S50000x512 .f32) bitsLt_bf16_f32 : FVec Ideal S50000x512 .bf16) := by
  after_results

theorem run0_2_v16 : StableHlo.after (hostOps0_2 (F := Ideal)) W (Proc.devRef .tc main_v16)
    = (truncf (F := Ideal) .bf16 (W (Proc.devRef .tc main_arg2) : FVec Ideal S512x256 .f32) bitsLt_bf16_f32 : FVec Ideal S512x256 .bf16) := by
  after_results

/-! ## The rectifier, the padding and the two roundings before the second matrix product -/

theorem run1_1_v37 : StableHlo.after (hostOps1_1 (F := Ideal)) W (Proc.devRef .tc main_v37)
    = maximumf (W (Proc.devRef .tc main_v36))
        (broadcastInDim S50000x256 ![] bcast_S_S50000x256 (constant (F := Ideal) S_ .f32 0x00000000#32)) := by
  after_results
  rfl

theorem run1_2_c_5 : StableHlo.after (hostOps1_2 (F := Ideal)) W (Proc.devRef .tc main_c_5) = constantI S_ 32 0#32 := by
  after_results

theorem run1_3_v38 : StableHlo.after (hostOps1_3 (F := Ideal)) W (Proc.devRef .tc main_v38)
    = pad S256x128 ![0, 0] ![0, 64] ![0, 0] (W (Proc.devRef .tc main_arg4))
        (sitofp (F := Ideal) .f32 (W (Proc.devRef .tc main_c_5))) pads_S256x64_S256x128_000_0640 h_S_ := by
  after_results
  rfl

theorem run1_4_v39 : StableHlo.after (hostOps1_4 (F := Ideal)) W (Proc.devRef .tc main_v39)
    = (truncf (F := Ideal) .bf16 (W (Proc.devRef .tc main_v37) : FVec Ideal S50000x256 .f32) bitsLt_bf16_f32 : FVec Ideal S50000x256 .bf16) := by
  after_results

theorem run1_4_v40 : StableHlo.after (hostOps1_4 (F := Ideal)) W (Proc.devRef .tc main_v40)
    = (truncf (F := Ideal) .bf16 (W (Proc.devRef .tc main_v38) : FVec Ideal S256x128 .f32) bitsLt_bf16_f32 : FVec Ideal S256x128 .bf16) := by
  after_results

end Cert.KernelIdeal.Walk

end
-- ==== Proof.KernelWalkStretchB.lean ====
import proofs.«122016_j61864708932307_2_alg».proof.Proof.KernelWalkDefs
import Idealize.ShloMosaic.Lib.StableHlo.Run

/-! # What each long host stretch leaves in its result buffer

For a stretch of host operations and any contents `W` of the buffers before it, the contents of the stretch's last
result buffer after it: the operations' functions composed, over `W` at the buffers the stretch reads. -/

set_option maxRecDepth 16384

noncomputable section

namespace Cert.KernelIdeal.Walk

open Idealize.ShloMosaic Idealize.ShloMosaic.TcCoe Idealize.ShloMosaic.Tactic
open Idealize.SL Idealize.SL.Sem
open Cert.KernelIdeal.Gen

variable (W : Valuation τ sig (Elt Ideal))

/-! ## The aggregation between the two matrix products -/

set_option maxHeartbeats 1000000 in
theorem run1_v36 : StableHlo.after (hostOps1 (F := Ideal)) W (Proc.devRef .tc main_v36)
    = agg1T (W (Proc.devRef .tc main_v17)) (W (Proc.devRef .tc main_v14)) (W (Proc.devRef .tc main_v5))
        (W (Proc.devRef .tc main_v6)) (W (Proc.devRef .tc main_arg3)) := by
  after_results_simp
  rfl

/-! ## The aggregation after the second matrix product, and the logarithm of the softmax -/

set_option maxHeartbeats 1000000 in
theorem run2_v61 : StableHlo.after (hostOps2 (F := Ideal)) W (Proc.devRef .tc main_v61)
    = agg2T (W (Proc.devRef .tc main_v41)) (W (Proc.devRef .tc main_v14)) (W (Proc.devRef .tc main_v5))
        (W (Proc.devRef .tc main_v6)) (W (Proc.devRef .tc main_arg5)) := by
  after_results_simp
  rfl

/-! ### The last stretch

Its operations are stated over typed references, so each result is transported along the (trivial) equation between
the reference's type and the value's.  To read the stretch off without opening the two reductions over the rows, the
stretch and its composed function are first taken over ANY row maximum and row sum; the program's are an instance. -/

/-- `shiftT` over any row maximum `rmax`. -/
def shiftG (rmax : FVec Ideal S50000x64 .f32 → FVec Ideal S_ .f32 → FVec Ideal S50000 .f32)
    (x : FVec Ideal S50000x64 .f32) : FVec Ideal S50000x64 .f32 :=
  subf x
    (broadcastInDim S50000x64 ![0, 1] bcast_S50000x1_S50000x64_0_1
      (broadcastInDim S50000x1 ![0] bcast_S50000_S50000x1_0
        (maximumf
          (broadcastInDim S50000 ![] bcast_S_S50000 (constant (F := Ideal) S_ .f32 0xFF800000#32))
          (rmax x (constant (F := Ideal) S_ .f32 0xFF800000#32)))))

/-- `lsmT` over any row maximum `rmax` and any row sum `radd`. -/
def lsmG (rmax radd : FVec Ideal S50000x64 .f32 → FVec Ideal S_ .f32 → FVec Ideal S50000 .f32)
    (x : FVec Ideal S50000x64 .f32) : FVec Ideal S50000x64 .f32 :=
  subf (shiftG rmax x)
    (broadcastInDim S50000x64 ![0, 1] bcast_S50000x1_S50000x64_0_1
      (Host.log (F := Ideal)
        (broadcastInDim S50000x1 ![0] bcast_S50000_S50000x1_0
          (radd (Host.exp (F := Ideal) (shiftG rmax x)) (constant (F := Ideal) S_ .f32 0x00000000#32)))))

/-- The last stretch's operations over any row maximum and any row sum. -/
abbrev lsmOps {F : FTy → Type} [FloatOps F] (rmax radd : FVec F S50000x64 .f32 → FVec F S_ .f32 → FVec F S50000 .f32) :
    List (HloOp τ sig (Elt F)) :=

  [ StableHlo.TRef.nullary (.of main_call3_cst : StableHlo.TRef sig ⟨S_, .f32⟩) (constant S_ .f32 0xFF800000#32),
    StableHlo.TRef.binary (.of main_v61 : StableHlo.TRef sig ⟨S50000x64, .f32⟩) (.of main_call3_cst : StableHlo.TRef sig ⟨S_, .f32⟩) (.of main_call3_v0 : StableHlo.TRef sig ⟨S50000, .f32⟩) rmax,
    StableHlo.TRef.nullary (.of main_call3_cst_0 : StableHlo.TRef sig ⟨S_, .f32⟩) (constant S_ .f32 0xFF800000#32),
    StableHlo.TRef.unary (.of main_call3_cst_0 : StableHlo.TRef sig ⟨S_, .f32⟩) (.of main_call3_v1 : StableHlo.TRef sig ⟨S50000, .f32⟩) (broadcastInDim S50000 ![] bcast_S_S50000),
    StableHlo.TRef.binary (.of main_call3_v1 : StableHlo.TRef sig ⟨S50000, .f32⟩) (.of main_call3_v0 : StableHlo.TRef sig ⟨S50000, .f32⟩) (.of main_call3_v2 : StableHlo.TRef sig ⟨S50000, .f32⟩) maximumf,
    StableHlo.TRef.unary (.of main_call3_v2 : StableHlo.TRef sig ⟨S50000, .f32⟩) (.of main_call3_v3 : StableHlo.TRef sig ⟨S50000x1, .f32⟩) (broadcastInDim S50000x1 ![0] bcast_S50000_S50000x1_0),
    StableHlo.TRef.unary (.of main_call3_v3 : StableHlo.TRef sig ⟨S50000x1, .f32⟩) (.of main_call3_v4 : StableHlo.TRef sig ⟨S50000x64, .f32⟩) (broadcastInDim S50000x64 ![0, 1] bcast_S50000x1_S50000x64_0_1),
    StableHlo.TRef.binary (.of main_v61 : StableHlo.TRef sig ⟨S50000x64, .f32⟩) (.of main_call3_v4 : StableHlo.TRef sig ⟨S50000x64, .f32⟩) (.of main_call3_v5 : StableHlo.TRef sig ⟨S50000x64, .f32⟩) subf,
    StableHlo.TRef.unary (.of main_call3_v5 : StableHlo.TRef sig ⟨S50000x64, .f32⟩) (.of main_call3_v6 : StableHlo.TRef sig ⟨S50000x64, .f32⟩) Host.exp,
    StableHlo.TRef.nullary (.of main_call3_cst_1 : StableHlo.TRef sig ⟨S_, .f32⟩) (constant S_ .f32 0x00000000#32),
    StableHlo.TRef.binary (.of main_call3_v6 : StableHlo.TRef sig ⟨S50000x64, .f32⟩) (.of main_call3_cst_1 : StableHlo.TRef sig ⟨S_, .f32⟩) (.of main_call3_v7 : StableHlo.TRef sig ⟨S50000, .f32⟩) radd,
    StableHlo.TRef.unary (.of main_call3_v7 : StableHlo.TRef sig ⟨S50000, .f32⟩) (.of main_call3_v8 : StableHlo.TRef sig ⟨S50000x1, .f32⟩) (broadcastInDim S50000x1 ![0] bcast_S50000_S50000x1_0),
    StableHlo.TRef.unary (.of main_call3_v8 : StableHlo.TRef sig ⟨S50000x1, .f32⟩) (.of main_call3_v9 : StableHlo.TRef sig ⟨S50000x1, .f32⟩) Host.log,
    StableHlo.TRef.unary (.of main_call3_v9 : StableHlo.TRef sig ⟨S50000x1, .f32⟩) (.of main_call3_v10 : StableHlo.TRef sig ⟨S50000x64, .f32⟩) (broadcastInDim S50000x64 ![0, 1] bcast_S50000x1_S50000x64_0_1),
    StableHlo.TRef.binary (.of main_call3_v5 : StableHlo.TRef sig ⟨S50000x64, .f32⟩) (.of main_call3_v10 : StableHlo.TRef sig ⟨S50000x64, .f32⟩) (.of main_v62 : StableHlo.TRef sig ⟨S50000x64, .f32⟩) subf ]

set_option maxHeartbeats 1000000 in
theorem lsm_gen (rmax radd : FVec Ideal S50000x64 .f32 → FVec Ideal S_ .f32 → FVec Ideal S50000 .f32) :
    StableHlo.after (lsmOps (F := Ideal) rmax radd) W (Proc.devRef .tc main_v62)
    = lsmG rmax radd (W (Proc.devRef .tc main_v61)) := by
  after_results_simp
  rfl

theorem hostOps2_1_eq : hostOps2_1 (F := Ideal)
    = lsmOps (fun x v => Host.reduce FloatOps.maximumf x v reducesTo_S50000x64_S50000_d1 h_S_)
        (fun x v => Host.reduceAdd x v reducesTo_S50000x64_S50000_d1 h_S_) := rfl

theorem lsmT_eq (x : FVec Ideal S50000x64 .f32) : lsmT x
    = lsmG (fun x v => Host.reduce FloatOps.maximumf x v reducesTo_S50000x64_S50000_d1 h_S_)
        (fun x v => Host.reduceAdd x v reducesTo_S50000x64_S50000_d1 h_S_) x := rfl

theorem run2_1_v62 : StableHlo.after (hostOps2_1 (F := Ideal)) W (Proc.devRef .tc main_v62)
    = lsmT (W (Proc.devRef .tc main_v61)) :=
  (congrArg (fun ops => StableHlo.after ops W (Proc.devRef .tc main_v62)) hostOps2_1_eq).trans
    ((lsm_gen W _ _).trans (lsmT_eq _).symm)

end Cert.KernelIdeal.Walk

end
-- ==== Proof.KernelWalk.lean ====
import proofs.«122016_j61864708932307_2_alg».proof.Proof.KernelWalkDefs
import proofs.«122016_j61864708932307_2_alg».proof.Proof.KernelWalkKeep
import proofs.«122016_j61864708932307_2_alg».proof.Proof.KernelWalkStretchA
import proofs.«122016_j61864708932307_2_alg».proof.Proof.KernelWalkStretchB

/-! # The result of the kernel program, walked back through the segments of `@main`

The generated frame certificate names the buffers' contents at every segment boundary: `Gen.W0` (the launch
memory), `Gen.W1` … `Gen.W3` (after each host stretch before the first matrix product), `Gen.W4` (after the
first matrix product), `Gen.W5` … `Gen.W9`, `Gen.W10` (after the second matrix product), `Gen.W11` and
`Gen.W12` (the end).  Here each buffer that a later segment reads is followed back from the boundary where it is
read to the segment that wrote it: a stretch that does not write it is crossed by the lemmas of
`KernelWalkKeep`, a matrix product by `Gen.W4_of_ne` / `Gen.W10_of_ne` (or `Gen.W4_arr` / `Gen.W10_arr` at its
own output), and the stretch that wrote it is read by the lemmas of `KernelWalkStretchA` / `KernelWalkStretchB`.

Throughout, `ei` is the edge list `m main_arg1`; the normalisation `dinvT ei`, the sources `sT ei` and the
destinations `dT ei` appear by these names (not unfolded) inside `midT` and `tailT`. -/

set_option maxRecDepth 16384

noncomputable section

namespace Cert.KernelIdeal.Walk

open Idealize.ShloMosaic Idealize.ShloMosaic.TcCoe Idealize.ShloMosaic.Tactic
open Idealize.SL Idealize.SL.Sem
open Cert.KernelIdeal.Gen

open Idealize.ShloMosaic.Pipeline (Dat Cfg Window)

variable (m : (ℓ : Loc nD τ sig) → Buf (Elt Ideal) ℓ) (ρ : Dev nD → PrngReg) (c : Dev nD)

/-! ## The windows' arrays by name -/

theorem arr0_0 : Pipeline.arrRef spec0 0 = main_v15 := rfl
theorem arr0_1 : Pipeline.arrRef spec0 1 = main_v16 := rfl
theorem arr0_2 : Pipeline.arrRef spec0 2 = main_v17 := rfl
theorem arr1_0 : Pipeline.arrRef spec1 0 = main_v39 := rfl
theorem arr1_1 : Pipeline.arrRef spec1 1 = main_v40 := rfl
theorem arr1_2 : Pipeline.arrRef spec1 2 = main_v41 := rfl

/-! ## The argument arrays at the boundaries where they are read -/

theorem W2_arg0 : Gen.W2 m ρ c (Proc.devRef .tc main_arg0) = m ((c : Thread nD τ).loc main_arg0) :=
  (keep0_1_arg0 (Gen.W1 m ρ c)).trans <|
    (keep0_arg0 (Gen.W0 m ρ c)).trans <|
    rfl

theorem W2_arg2 : Gen.W2 m ρ c (Proc.devRef .tc main_arg2) = m ((c : Thread nD τ).loc main_arg2) :=
  (keep0_1_arg2 (Gen.W1 m ρ c)).trans <|
    (keep0_arg2 (Gen.W0 m ρ c)).trans <|
    rfl

theorem W4_arg3 : Gen.W4 m ρ c (Proc.devRef .tc main_arg3) = m ((c : Thread nD τ).loc main_arg3) :=
  (Gen.W4_of_ne m ρ c main_arg3 (by decide)).trans <|
    (keep0_2_arg3 (Gen.W2 m ρ c)).trans <|
    (keep0_1_arg3 (Gen.W1 m ρ c)).trans <|
    (keep0_arg3 (Gen.W0 m ρ c)).trans <|
    rfl

theorem W4_arg4 : Gen.W4 m ρ c (Proc.devRef .tc main_arg4) = m ((c : Thread nD τ).loc main_arg4) :=
  (Gen.W4_of_ne m ρ c main_arg4 (by decide)).trans <|
    (keep0_2_arg4 (Gen.W2 m ρ c)).trans <|
    (keep0_1_arg4 (Gen.W1 m ρ c)).trans <|
    (keep0_arg4 (Gen.W0 m ρ c)).trans <|
    rfl

theorem W7_arg4 : Gen.W7 m ρ c (Proc.devRef .tc main_arg4) = m ((c : Thread nD τ).loc main_arg4) :=
  (keep1_2_arg4 (Gen.W6 m ρ c)).trans <|
    (keep1_1_arg4 (Gen.W5 m ρ c)).trans <|
    (keep1_arg4 (Gen.W4 m ρ c)).trans <|
    W4_arg4 m ρ c

theorem W4_arg5 : Gen.W4 m ρ c (Proc.devRef .tc main_arg5) = m ((c : Thread nD τ).loc main_arg5) :=
  (Gen.W4_of_ne m ρ c main_arg5 (by decide)).trans <|
    (keep0_2_arg5 (Gen.W2 m ρ c)).trans <|
    (keep0_1_arg5 (Gen.W1 m ρ c)).trans <|
    (keep0_arg5 (Gen.W0 m ρ c)).trans <|
    rfl

theorem W10_arg5 : Gen.W10 m ρ c (Proc.devRef .tc main_arg5) = m ((c : Thread nD τ).loc main_arg5) :=
  (Gen.W10_of_ne m ρ c main_arg5 (by decide)).trans <|
    (keep1_4_arg5 (Gen.W8 m ρ c)).trans <|
    (keep1_3_arg5 (Gen.W7 m ρ c)).trans <|
    (keep1_2_arg5 (Gen.W6 m ρ c)).trans <|
    (keep1_1_arg5 (Gen.W5 m ρ c)).trans <|
    (keep1_arg5 (Gen.W4 m ρ c)).trans <|
    W4_arg5 m ρ c

/-! ## The first matrix product's operands: the features and the first weights, rounded -/

theorem V3_arr0 : Gen.V3 m ρ c (Pipeline.arrRef spec0 0)
    = (truncf (F := Ideal) .bf16 (m ((c : Thread nD τ).loc main_arg0) : FVec Ideal S50000x512 .f32) bitsLt_bf16_f32 : FVec Ideal S50000x512 .bf16) :=
  (run0_2_v15 (Gen.W2 m ρ c)).trans (congrArg (fun x : FVec Ideal S50000x512 .f32 => truncf (F := Ideal) .bf16 x bitsLt_bf16_f32) (W2_arg0 m ρ c))

theorem V3_arr1 : Gen.V3 m ρ c (Pipeline.arrRef spec0 1)
    = (truncf (F := Ideal) .bf16 (m ((c : Thread nD τ).loc main_arg2) : FVec Ideal S512x256 .f32) bitsLt_bf16_f32 : FVec Ideal S512x256 .bf16) :=
  (run0_2_v16 (Gen.W2 m ρ c)).trans (congrArg (fun x : FVec Ideal S512x256 .f32 => truncf (F := Ideal) .bf16 x bitsLt_bf16_f32) (W2_arg2 m ρ c))

/-! ## The graph's arrays after the first matrix product: written before it, untouched by it -/

theorem W1_v5 : Gen.W1 m ρ c (Proc.devRef .tc main_v5) = sT (m ((c : Thread nD τ).loc main_arg1)) := run0_v5 (Gen.W0 m ρ c)
theorem W1_v6 : Gen.W1 m ρ c (Proc.devRef .tc main_v6) = dT (m ((c : Thread nD τ).loc main_arg1)) := run0_v6 (Gen.W0 m ρ c)

theorem W2_v14 : Gen.W2 m ρ c (Proc.devRef .tc main_v14) = dinvT (m ((c : Thread nD τ).loc main_arg1)) := by
  refine (run0_1_v14 (Gen.W1 m ρ c)).trans ?_
  rw [show Gen.W1 m ρ c (Proc.devRef .tc main_v12) = _ from run0_v12 (Gen.W0 m ρ c),
    show Gen.W1 m ρ c (Proc.devRef .tc main_v13) = _ from run0_v13 (Gen.W0 m ρ c),
    show Gen.W1 m ρ c (Proc.devRef .tc main_cst_2) = _ from run0_cst_2 (Gen.W0 m ρ c)]
  rfl

theorem W4_v14 : Gen.W4 m ρ c (Proc.devRef .tc main_v14) = dinvT (m ((c : Thread nD τ).loc main_arg1)) :=
  (Gen.W4_of_ne m ρ c main_v14 (by decide)).trans <|
    (keep0_2_v14 (Gen.W2 m ρ c)).trans <|
    W2_v14 m ρ c

theorem W4_v5 : Gen.W4 m ρ c (Proc.devRef .tc main_v5) = sT (m ((c : Thread nD τ).loc main_arg1)) :=
  (Gen.W4_of_ne m ρ c main_v5 (by decide)).trans <|
    (keep0_2_v5 (Gen.W2 m ρ c)).trans <|
    (keep0_1_v5 (Gen.W1 m ρ c)).trans <|
    W1_v5 m ρ c

theorem W4_v6 : Gen.W4 m ρ c (Proc.devRef .tc main_v6) = dT (m ((c : Thread nD τ).loc main_arg1)) :=
  (Gen.W4_of_ne m ρ c main_v6 (by decide)).trans <|
    (keep0_2_v6 (Gen.W2 m ρ c)).trans <|
    (keep0_1_v6 (Gen.W1 m ρ c)).trans <|
    W1_v6 m ρ c

/-! ## The second matrix product's operands -/

theorem W5_v36 : Gen.W5 m ρ c (Proc.devRef .tc main_v36)
    = agg1T ((Gen.dat0 (Gen.V3 m ρ) c).arrAt 2 cfg0.N) (dinvT (m ((c : Thread nD τ).loc main_arg1))) (sT (m ((c : Thread nD τ).loc main_arg1))) (dT (m ((c : Thread nD τ).loc main_arg1))) (m ((c : Thread nD τ).loc main_arg3)) := by
  refine (run1_v36 (Gen.W4 m ρ c)).trans ?_
  rw [show Gen.W4 m ρ c (Proc.devRef .tc main_v17) = _ from Gen.W4_arr m ρ c 2, W4_v14, W4_v5, W4_v6, W4_arg3]

theorem W6_v37 : Gen.W6 m ρ c (Proc.devRef .tc main_v37) = midT ((Gen.dat0 (Gen.V3 m ρ) c).arrAt 2 cfg0.N) (m ((c : Thread nD τ).loc main_arg1)) (m ((c : Thread nD τ).loc main_arg3)) := by
  refine (run1_1_v37 (Gen.W5 m ρ c)).trans ?_
  rw [W5_v36]
  rfl

theorem W8_v37 : Gen.W8 m ρ c (Proc.devRef .tc main_v37) = midT ((Gen.dat0 (Gen.V3 m ρ) c).arrAt 2 cfg0.N) (m ((c : Thread nD τ).loc main_arg1)) (m ((c : Thread nD τ).loc main_arg3)) :=
  (keep1_3_v37 (Gen.W7 m ρ c)).trans <|
    (keep1_2_v37 (Gen.W6 m ρ c)).trans <|
    W6_v37 m ρ c

theorem W8_v38 : Gen.W8 m ρ c (Proc.devRef .tc main_v38) = padT (m ((c : Thread nD τ).loc main_arg4)) := by
  refine (run1_3_v38 (Gen.W7 m ρ c)).trans ?_
  rw [W7_arg4, show Gen.W7 m ρ c (Proc.devRef .tc main_c_5) = _ from run1_2_c_5 (Gen.W6 m ρ c)]
  rfl

theorem V9_arr0 : Gen.V9 m ρ c (Pipeline.arrRef spec1 0)
    = (truncf (F := Ideal) .bf16 (midT ((Gen.dat0 (Gen.V3 m ρ) c).arrAt 2 cfg0.N) (m ((c : Thread nD τ).loc main_arg1)) (m ((c : Thread nD τ).loc main_arg3))) bitsLt_bf16_f32 : FVec Ideal S50000x256 .bf16) :=
  (run1_4_v39 (Gen.W8 m ρ c)).trans (congrArg (fun x : FVec Ideal S50000x256 .f32 => truncf (F := Ideal) .bf16 x bitsLt_bf16_f32) (W8_v37 m ρ c))

theorem V9_arr1 : Gen.V9 m ρ c (Pipeline.arrRef spec1 1)
    = (truncf (F := Ideal) .bf16 (padT (m ((c : Thread nD τ).loc main_arg4))) bitsLt_bf16_f32 : FVec Ideal S256x128 .bf16) :=
  (run1_4_v40 (Gen.W8 m ρ c)).trans (congrArg (fun x : FVec Ideal S256x128 .f32 => truncf (F := Ideal) .bf16 x bitsLt_bf16_f32) (W8_v38 m ρ c))

/-! ## The result -/

theorem W10_v14 : Gen.W10 m ρ c (Proc.devRef .tc main_v14) = dinvT (m ((c : Thread nD τ).loc main_arg1)) :=
  (Gen.W10_of_ne m ρ c main_v14 (by decide)).trans <|
    (keep1_4_v14 (Gen.W8 m ρ c)).trans <|
    (keep1_3_v14 (Gen.W7 m ρ c)).trans <|
    (keep1_2_v14 (Gen.W6 m ρ c)).trans <|
    (keep1_1_v14 (Gen.W5 m ρ c)).trans <|
    (keep1_v14 (Gen.W4 m ρ c)).trans <|
    W4_v14 m ρ c

theorem W10_v5 : Gen.W10 m ρ c (Proc.devRef .tc main_v5) = sT (m ((c : Thread nD τ).loc main_arg1)) :=
  (Gen.W10_of_ne m ρ c main_v5 (by decide)).trans <|
    (keep1_4_v5 (Gen.W8 m ρ c)).trans <|
    (keep1_3_v5 (Gen.W7 m ρ c)).trans <|
    (keep1_2_v5 (Gen.W6 m ρ c)).trans <|
    (keep1_1_v5 (Gen.W5 m ρ c)).trans <|
    (keep1_v5 (Gen.W4 m ρ c)).trans <|
    W4_v5 m ρ c

theorem W10_v6 : Gen.W10 m ρ c (Proc.devRef .tc main_v6) = dT (m ((c : Thread nD τ).loc main_arg1)) :=
  (Gen.W10_of_ne m ρ c main_v6 (by decide)).trans <|
    (keep1_4_v6 (Gen.W8 m ρ c)).trans <|
    (keep1_3_v6 (Gen.W7 m ρ c)).trans <|
    (keep1_2_v6 (Gen.W6 m ρ c)).trans <|
    (keep1_1_v6 (Gen.W5 m ρ c)).trans <|
    (keep1_v6 (Gen.W4 m ρ c)).trans <|
    W4_v6 m ρ c

theorem W11_v61 : Gen.W11 m ρ c (Proc.devRef .tc main_v61)
    = agg2T ((Gen.dat1 (Gen.V9 m ρ) c).arrAt 2 cfg1.N) (dinvT (m ((c : Thread nD τ).loc main_arg1))) (sT (m ((c : Thread nD τ).loc main_arg1))) (dT (m ((c : Thread nD τ).loc main_arg1))) (m ((c : Thread nD τ).loc main_arg5)) := by
  refine (run2_v61 (Gen.W10 m ρ c)).trans ?_
  rw [show Gen.W10 m ρ c (Proc.devRef .tc main_v41) = _ from Gen.W10_arr m ρ c 2, W10_v14, W10_v5, W10_v6, W10_arg5]

theorem W12_v62 : Gen.W12 m ρ c (Proc.devRef .tc main_v62) = tailT ((Gen.dat1 (Gen.V9 m ρ) c).arrAt 2 cfg1.N) (m ((c : Thread nD τ).loc main_arg1)) (m ((c : Thread nD τ).loc main_arg5)) := by
  refine (run2_1_v62 (Gen.W11 m ρ c)).trans ?_
  rw [W11_v61]
  rfl

end Cert.KernelIdeal.Walk

end
-- ==== Proof.LibPlain.lean ====
/-
  A plain matrix product and a row maximum, read at coordinates, at the extended reals.

  A product of an `M × K` by a `K × N` matrix with the standard dimension numbers — contract the left operand's
  axis 1 with the right operand's axis 0, no batch axis — is, at `(a, b)`, the sum over `c` of the entries
  `(a, c)` and `(c, b)`: for a product accumulated into a zero array and for the host's product alike, whatever
  record carries the dimension numbers, as long as it is the standard one.
  The maximum over the last axis of an `a × b` array, started from `-∞`, is at row `p` the fold of `max` from `⊥`
  over the row's entries.
-/
import Idealize.ShloMosaic.Lib.StackMember
import Idealize.ShloMosaic.Lib.KernelVsHost
import Idealize.ShloMosaic.PureOps.Ideal.Laws
import Idealize.ShloMosaic.Lib.ValueIdx

noncomputable section

namespace Cert.LibPlain

open Idealize.ShloMosaic Idealize.ShloMosaic.ValueIdx

/-- The host's product with the standard dimension numbers, at `(a, b)`: `∑ c, A (a, c) * B (c, b)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    Host.dotGeneral d prec A B (ix2 a b) = ∑ c : Fin K, A (ix2 a c) * B (ix2 c b) := by
  subst hd
  exact StackMember.dotGeneral_plain_apply prec A B a b

/-- A product accumulated into the zero array, with the standard dimension numbers, at `(a, b)`: the same sum
    (`0 + s = s` holds for every extended real `s`). -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (a : Fin M) (b : Fin N) :
    matmul d prec A B (constant (F := Ideal) ⟨2, ![M, N]⟩ .f32 0x00000000#32) (ix2 a b)
      = ∑ c : Fin K, A (ix2 a c) * B (ix2 c b) := by
  rw [matmul_zero_eq_dotGeneral]
  exact dotGeneral_apply d hd prec A B a b

/-- The bit pattern of `-∞` in f32 denotes `⊥`. -/
theorem ofBits_neg_inf_f32 : Ideal.ofBits .f32 0xFF800000#32 = ⊥ := by simp [Ideal.ofBits, Ideal.ieee]

/-- The maximum over the last axis of an `a × b` array from `-∞`, at row `p`: the fold of `max` from `⊥` over the
    entries `(p, k)` of the row. -/
theorem rowMax_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0xFF800000#32 : BitVec 32) = FKind.maximumf.neutral .f32 hφ) (p : Fin a) :
    multiReduction .maximumf [(1 : Fin 2)] ⟨1, ![a]⟩ src 0xFF800000#32 h hφ hacc (ix1 p)
      = (Finset.univ : Finset (Fin b)).fold max ⊥ (fun k => src (ix2 p k)) := by
  rw [Ideal.multiReduction_maximumf_single src 0xFF800000#32 h hφ hacc (ix1 p)]
  show (Finset.univ : Finset (Fin b)).fold max (Ideal.ofBits .f32 0xFF800000#32) _ = _
  rw [ofBits_neg_inf_f32]
  refine congrArg (Finset.fold max ⊥ · Finset.univ) (funext fun k => ?_)
  exact congrArg src (funext fun ax => Fin.ext (by
    match ax with
    | ⟨0, _⟩ => rfl
    | ⟨1, _⟩ => rfl))

end Cert.LibPlain

end
-- ==== Proof.LibGemm.lean ====
/-
  The product of two matrices over the extended reals, and a tile of it.

  For `A` of `M × K` and `B` of `K × N` entries, `prod A B` has at `(r, c)` the entry `∑ k, A (r, k) * B (k, c)`.
  The sum is a finite sum in a commutative monoid, so no finiteness of the entries is asked: the extended reals add and
  multiply everywhere, and nothing here distributes, cancels, or reorders a product across a sum.

  Two readings meet at this one function.  The host's product with the standard dimension numbers (contract the left
  operand's columns with the right operand's rows) IS `prod`.  And a TILE of the product — `TM` rows by `TN`
  columns, computed from the `TM × K` rows of `A` and the `K × TN` columns of `B` it depends on, accumulated into
  a zero tile — is `prod A B` read at the tile's place: entry `(r, q)` of the tile only needs row `r` of the row
  block to be row `I 0` of `A` and column `q` of the column block to be column `I 1` of `B`.  A change of float
  format is the identity on extended reals, so the operands' formats do not matter.
-/
import proofs.«122016_j61864708932307_2_alg».proof.Proof.LibPlain
import Idealize.ShloMosaic.Lib.Pipeline.Value
import Idealize.ShloMosaic.Lib.ValueIdx

noncomputable section

namespace Cert.Gemm

open Idealize.ShloMosaic Idealize.ShloMosaic.ValueIdx

/-- The matrix product: at `(r, c)`, the sum over `k` of `A (r, k) * B (k, c)`. -/
def prod {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The product at an index. -/
theorem prod_apply {M K N : ℕ} (A : (⟨2, ![M, K]⟩ : Shape).Idx → EReal) (B : (⟨2, ![K, N]⟩ : Shape).Idx → EReal)
    (i : (⟨2, ![M, N]⟩ : Shape).Idx) : prod A B i = ∑ k : Fin K, A (ix2 (i 0) k) * B (ix2 k (i 1)) := rfl

/-- The host's product with the standard dimension numbers is `prod`, whatever the operands' float formats. -/
theorem host_eq_prod {M K N : ℕ} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) :
    Host.dotGeneral d prec A B = prod A B := by
  funext i
  refine (congrArg (Host.dotGeneral d prec A B) (eq_ix2 i)).trans ?_
  exact Cert.LibPlain.dotGeneral_apply d hd prec A B (i 0) (i 1)

/-- A tile of the product.  `X0` is a block of `TM` rows and `X1` a block of `TN` columns; the tile's entry `y`
    is the product's entry `I` as soon as row `y 0` of `X0` is row `I 0` of `A` and column `y 1` of `X1` is
    column `I 1` of `B`.  (The two casts are casts of a shape to itself: the identity.) -/
theorem tile_apply {M K N TM TN : ℕ} {φ₁ φ₂ : FTy}
    (A : (⟨2, ![M, K]⟩ : Shape).Idx → EReal) (B : (⟨2, ![K, N]⟩ : Shape).Idx → EReal)
    (X0 : FVec Ideal ⟨2, ![TM, K]⟩ φ₁) (X1 : FVec Ideal ⟨2, ![K, TN]⟩ φ₂)
    (d : DotDims ⟨2, ![TM, K]⟩ ⟨2, ![K, TN]⟩ ⟨2, ![TM, TN]⟩) (hd : d = DotDims.plain TM K TN)
    (c0 : (⟨2, ![TM, K]⟩ : Shape).ShapeCasts ⟨2, ![TM, K]⟩) (c1 : (⟨2, ![K, TN]⟩ : Shape).ShapeCasts ⟨2, ![K, TN]⟩)
    (y : (⟨2, ![TM, TN]⟩ : Shape).Idx) (I : (⟨2, ![M, N]⟩ : Shape).Idx)
    (h0 : ∀ k : Fin K, X0 (ix2 (y 0) k) = A (ix2 (I 0) k))
    (h1 : ∀ k : Fin K, X1 (ix2 k (y 1)) = B (ix2 k (I 1))) :
    matmul d none (shapeCast ⟨2, ![TM, K]⟩ X0 c0) (shapeCast ⟨2, ![K, TN]⟩ X1 c1)
        (constant (F := Ideal) ⟨2, ![TM, TN]⟩ .f32 0x00000000#32) y
      = prod A B I := by
  rw [shapeCast_self, shapeCast_self]
  refine (congrArg (matmul d none X0 X1 (constant (F := Ideal) ⟨2, ![TM, TN]⟩ .f32 0x00000000#32)) (eq_ix2 y)).trans ?_
  refine (Cert.LibPlain.matmul_zero_apply d hd none X0 X1 (y 0) (y 1)).trans ?_
  rw [prod_apply]
  exact Finset.sum_congr rfl fun k _ => by rw [h0 k, h1 k]

end Cert.Gemm

end
-- ==== Proof.GemmA.lean ====
/-
  The first matrix product, from row blocks to the whole array, at the extended reals.

  The region multiplies a 50000 × 512 matrix by a 512 × 256 matrix in 25 steps: step `t` reads rows
  `2000 t … 2000 t + 1999` of the left matrix and the whole right matrix, and writes the product of the two into rows
  `2000 t … 2000 t + 1999` of the result.  Entry `(r, q)` of a block product only needs row `r` of the row block and
  column `q` of the right matrix, so each written block is the matching block of ONE function of the two operands,
  their product; the 25 row blocks cover the result, so after the region the result IS the product: at `(i, j)`,
  the sum over `k` of the entries `(i, k)` and `(k, j)` of the operands as the region finds them.  Nothing is asked
  of the entries: the sum is a finite sum in a commutative monoid, and no product is distributed or reordered.
-/
import proofs.«122016_j61864708932307_2_alg».proof.Proof.Gen.KernelIdeal.Frame
import proofs.«122016_j61864708932307_2_alg».proof.Proof.LibGemm
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Gemm

open Cert.KernelIdeal Cert.KernelIdeal.Gen

variable (V : (c : Dev nD) → (b : Ref sig .tc) → Buf (Elt Ideal) ((c : Thread nD τ).loc b))

/-- The left operand, as the region finds it. -/
abbrev A0 (c : Dev nD) : S50000x512.Idx → EReal := V c (Pipeline.arrRef spec0 0)
/-- The right operand, as the region finds it. -/
abbrev B0 (c : Dev nD) : S512x256.Idx → EReal := V c (Pipeline.arrRef spec0 1)
/-- Their product: at (r, q) the sum over k of the entries (r, k) and (k, q). -/
abbrev G0 (c : Dev nD) : S50000x256.Idx → EReal := Cert.Gemm.prod (A0 V c) (B0 V c)

theorem zeros0 : (![0, 0] : Fin 2 → Nat) = fun _ => 0 := funext fun a => by fin_cases a <;> rfl

/-- The body's dimension numbers are the standard ones: contract the left operand's columns with the right
    operand's rows, no batch axis. -/
theorem dims0 : dot_S2000x512_S512x256_S2000x256_1_0_0_1_n_n = DotDims.plain 2000 512 256 := rfl

/-- The body's payload at an entry: entry `y` of the product of a block of 2000 rows by the 256 columns is entry `I`
    of the whole product, once row `y 0` of the row block is row `I 0` of the left matrix and column `y 1` of the
    column block is column `I 1` of the right one. -/
theorem pay0_apply (A : S50000x512.Idx → EReal) (B : S512x256.Idx → EReal)
    (x0 : Vec Ideal S2000x512 .bf16) (x1 : Vec Ideal S512x256 .bf16) (y : S2000x256.Idx) (I : S50000x256.Idx)
    (h0 : ∀ k : Fin 512, x0 (ix2 (y 0) k) = A (ix2 (I 0) k))
    (h1 : ∀ k : Fin 512, x1 (ix2 k (y 1)) = B (ix2 k (I 1))) :
    k0_pay1 x0 x1 y = Cert.Gemm.prod A B I := by
  unfold k0_pay1
  exact Cert.Gemm.tile_apply A B x0 x1 _ dims0 _ _ y I h0 h1

/-- The block index of each window at point `t`: the row-block windows are at block row `t`, the right operand's
    window is the whole matrix at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000 t … 2000 t + 1999` of the left matrix. -/
theorem lhs_blk0 (c : Dev nD) (t : Fin cfg0.N) (x : S2000x512.Idx) (i : S50000x512.Idx)
    (h0 : (i 0).val = 2000 * t.val + (x 0).val) (h1 : (i 1).val = (x 1).val) :
    (iblk0 V c 0 t : Vec Ideal S2000x512 .bf16) x = A0 V c i := by
  obtain ⟨e0, e1, -, -, -, -⟩ := idx0 t
  unfold iblk0
  rw [View.read_apply]
  show V c (Pipeline.arrRef spec0 0) _ = V c (Pipeline.arrRef spec0 0) i
  congr 1
  funext a
  apply Fin.ext
  match a with
  | ⟨0, _⟩ => show win0_0.index t 0 * 2000 + 1 * (x 0).val = (i 0).val; rw [e0, h0]; omega
  | ⟨1, _⟩ => show win0_0.index t 1 * 512 + 1 * (x 1).val = (i 1).val; rw [e1, h1]; omega

/-- The right operand's block at every point is the right matrix. -/
theorem rhs_blk0 (c : Dev nD) (t : Fin cfg0.N) (x : S512x256.Idx) (i : S512x256.Idx)
    (h0 : (i 0).val = (x 0).val) (h1 : (i 1).val = (x 1).val) :
    (iblk0 V c 1 t : Vec Ideal S512x256 .bf16) x = B0 V c i := by
  obtain ⟨-, -, e0, e1, -, -⟩ := idx0 t
  unfold iblk0
  rw [View.read_apply]
  show V c (Pipeline.arrRef spec0 1) _ = V c (Pipeline.arrRef spec0 1) i
  congr 1
  funext a
  apply Fin.ext
  match a with
  | ⟨0, _⟩ => show win0_1.index t 0 * 512 + 1 * (x 0).val = (i 0).val; rw [e0, h0]; omega
  | ⟨1, _⟩ => show win0_1.index t 1 * 256 + 1 * (x 1).val = (i 1).val; rw [e1, h1]; omega

/-- What point `t` writes back is block `t` of the product. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero zeros0]
  simp only [View.ld_unit_zero (S := S2000x512) zeros0, View.ld_unit_zero (S := S512x256) zeros0]
  obtain ⟨-, -, -, -, e0, e1⟩ := idx0 t
  funext y
  rw [View.read_apply]
  show k0_pay1 (iblk0 V c 0 t) (iblk0 V c 1 t) y = Cert.Gemm.prod (A0 V c) (B0 V c) (((cfg0.win 2).blk t).view.emb y)
  refine pay0_apply (A0 V c) (B0 V c) _ _ y _ (fun k => ?_) (fun k => ?_)
  · refine lhs_blk0 V c t _ _ ?_ rfl
    show win0_2.index t (0 : Fin 2) * 2000 + 1 * (y 0).val = 2000 * t.val + (y 0).val
    rw [e0]; omega
  · refine rhs_blk0 V c t _ _ rfl ?_
    show win0_2.index t (1 : Fin 2) * 256 + 1 * (y 1).val = (y 1).val
    rw [e1]; omega

/-- An index of the result is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v17).slice (win0_2.rect t)).set ↔ _
  rw [View.set_slice_whole, Rect.mem_set_unit]
  exact Iff.rfl

/-- The blocks cover the result: row `r` is in the block of point `r / 2000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  have ht : t.val = (i 0).val / 2000 := rfl
  obtain ⟨-, -, -, -, e0, e1⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- The result array after the region: the product of the two operands as the region finds them. -/
theorem final0 (c : Dev nD) : (dat0 (F := Ideal) V c).arrAt 2 cfg0.N = G0 V c :=
  (dat0 (F := Ideal) V c).arrAt_eq_of_cover 2 (G0 V c) (fun t _ => flushed0 V c t) cover0

/-- The result array after the region, entry by entry. -/
theorem arr0 (c : Dev nD) (i : Fin 50000) (j : Fin 256) :
    (dat0 (F := Ideal) V c).arrAt 2 cfg0.N (ix2 i j) = ∑ k : Fin 512, A0 V c (ix2 i k) * B0 V c (ix2 k j) := by
  rw [final0]
  rfl

end Cert.KernelIdeal.Gemm

end
-- ==== Proof.GemmB.lean ====
/-
  The second matrix product, from row blocks to the whole array, at the extended reals.

  The region multiplies a 50000 × 256 matrix by a 256 × 128 matrix in 25 steps: step `t` reads rows
  `2000 t … 2000 t + 1999` of the left matrix and the whole right matrix, and writes the product of the two into rows
  `2000 t … 2000 t + 1999` of the result.  Entry `(r, q)` of a block product only needs row `r` of the row block and
  column `q` of the right matrix, so each written block is the matching block of ONE function of the two operands,
  their product; the 25 row blocks cover the result, so after the region the result IS the product: at `(i, j)`,
  the sum over `k` of the entries `(i, k)` and `(k, j)` of the operands as the region finds them.  Nothing is asked
  of the entries: the sum is a finite sum in a commutative monoid, and no product is distributed or reordered.
-/
import proofs.«122016_j61864708932307_2_alg».proof.Proof.Gen.KernelIdeal.Frame
import proofs.«122016_j61864708932307_2_alg».proof.Proof.LibGemm
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Gemm

open Cert.KernelIdeal Cert.KernelIdeal.Gen

variable (V : (c : Dev nD) → (b : Ref sig .tc) → Buf (Elt Ideal) ((c : Thread nD τ).loc b))

/-- The left operand, as the region finds it. -/
abbrev A1 (c : Dev nD) : S50000x256.Idx → EReal := V c (Pipeline.arrRef spec1 0)
/-- The right operand, as the region finds it. -/
abbrev B1 (c : Dev nD) : S256x128.Idx → EReal := V c (Pipeline.arrRef spec1 1)
/-- Their product: at (r, q) the sum over k of the entries (r, k) and (k, q). -/
abbrev G1 (c : Dev nD) : S50000x128.Idx → EReal := Cert.Gemm.prod (A1 V c) (B1 V c)

theorem zeros1 : (![0, 0] : Fin 2 → Nat) = fun _ => 0 := funext fun a => by fin_cases a <;> rfl

/-- The body's dimension numbers are the standard ones: contract the left operand's columns with the right
    operand's rows, no batch axis. -/
theorem dims1 : dot_S2000x256_S256x128_S2000x128_1_0_0_1_n_n = DotDims.plain 2000 256 128 := rfl

/-- The body's payload at an entry: entry `y` of the product of a block of 2000 rows by the 128 columns is entry `I`
    of the whole product, once row `y 0` of the row block is row `I 0` of the left matrix and column `y 1` of the
    column block is column `I 1` of the right one. -/
theorem pay1_apply (A : S50000x256.Idx → EReal) (B : S256x128.Idx → EReal)
    (x0 : Vec Ideal S2000x256 .bf16) (x1 : Vec Ideal S256x128 .bf16) (y : S2000x128.Idx) (I : S50000x128.Idx)
    (h0 : ∀ k : Fin 256, x0 (ix2 (y 0) k) = A (ix2 (I 0) k))
    (h1 : ∀ k : Fin 256, x1 (ix2 k (y 1)) = B (ix2 k (I 1))) :
    k1_pay1 x0 x1 y = Cert.Gemm.prod A B I := by
  unfold k1_pay1
  exact Cert.Gemm.tile_apply A B x0 x1 _ dims1 _ _ y I h0 h1

/-- The block index of each window at point `t`: the row-block windows are at block row `t`, the right operand's
    window is the whole matrix at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `2000 t … 2000 t + 1999` of the left matrix. -/
theorem lhs_blk1 (c : Dev nD) (t : Fin cfg1.N) (x : S2000x256.Idx) (i : S50000x256.Idx)
    (h0 : (i 0).val = 2000 * t.val + (x 0).val) (h1 : (i 1).val = (x 1).val) :
    (iblk1 V c 0 t : Vec Ideal S2000x256 .bf16) x = A1 V c i := by
  obtain ⟨e0, e1, -, -, -, -⟩ := idx1 t
  unfold iblk1
  rw [View.read_apply]
  show V c (Pipeline.arrRef spec1 0) _ = V c (Pipeline.arrRef spec1 0) i
  congr 1
  funext a
  apply Fin.ext
  match a with
  | ⟨0, _⟩ => show win1_0.index t 0 * 2000 + 1 * (x 0).val = (i 0).val; rw [e0, h0]; omega
  | ⟨1, _⟩ => show win1_0.index t 1 * 256 + 1 * (x 1).val = (i 1).val; rw [e1, h1]; omega

/-- The right operand's block at every point is the right matrix. -/
theorem rhs_blk1 (c : Dev nD) (t : Fin cfg1.N) (x : S256x128.Idx) (i : S256x128.Idx)
    (h0 : (i 0).val = (x 0).val) (h1 : (i 1).val = (x 1).val) :
    (iblk1 V c 1 t : Vec Ideal S256x128 .bf16) x = B1 V c i := by
  obtain ⟨-, -, e0, e1, -, -⟩ := idx1 t
  unfold iblk1
  rw [View.read_apply]
  show V c (Pipeline.arrRef spec1 1) _ = V c (Pipeline.arrRef spec1 1) i
  congr 1
  funext a
  apply Fin.ext
  match a with
  | ⟨0, _⟩ => show win1_1.index t 0 * 256 + 1 * (x 0).val = (i 0).val; rw [e0, h0]; omega
  | ⟨1, _⟩ => show win1_1.index t 1 * 128 + 1 * (x 1).val = (i 1).val; rw [e1, h1]; omega

/-- What point `t` writes back is block `t` of the product. -/
theorem flushed1 (c : Dev nD) (t : Fin cfg1.N) :
    (dat1 (F := Ideal) V c).flushed 2 t = ((cfg1.win 2).blk t).view.read (Elt Ideal) (G1 V c) := by
  show (cfg1.win 2).cut (grid1.coords t) ((dat1 (F := Ideal) V c).after 2 t) = _
  rw [after1_2]
  unfold out1_2
  rw [View.canon_unit_zero zeros1]
  simp only [View.ld_unit_zero (S := S2000x256) zeros1, View.ld_unit_zero (S := S256x128) zeros1]
  obtain ⟨-, -, -, -, e0, e1⟩ := idx1 t
  funext y
  rw [View.read_apply]
  show k1_pay1 (iblk1 V c 0 t) (iblk1 V c 1 t) y = Cert.Gemm.prod (A1 V c) (B1 V c) (((cfg1.win 2).blk t).view.emb y)
  refine pay1_apply (A1 V c) (B1 V c) _ _ y _ (fun k => ?_) (fun k => ?_)
  · refine lhs_blk1 V c t _ _ ?_ rfl
    show win1_2.index t (0 : Fin 2) * 2000 + 1 * (y 0).val = 2000 * t.val + (y 0).val
    rw [e0]; omega
  · refine rhs_blk1 V c t _ _ rfl ?_
    show win1_2.index t (1 : Fin 2) * 128 + 1 * (y 1).val = (y 1).val
    rw [e1]; omega

/-- An index of the result is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v41).slice (win1_2.rect t)).set ↔ _
  rw [View.set_slice_whole, Rect.mem_set_unit]
  exact Iff.rfl

/-- The blocks cover the result: row `r` is in the block of point `r / 2000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have ht : t.val = (i 0).val / 2000 := rfl
  obtain ⟨-, -, -, -, e0, e1⟩ := idx1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 128 ≤ (i 1).val ∧ (i 1).val < win1_2.index t (1 : Fin 2) * 128 + 128; rw [e1]; omega

/-- The result array after the region: the product of the two operands as the region finds them. -/
theorem final1 (c : Dev nD) : (dat1 (F := Ideal) V c).arrAt 2 cfg1.N = G1 V c :=
  (dat1 (F := Ideal) V c).arrAt_eq_of_cover 2 (G1 V c) (fun t _ => flushed1 V c t) cover1

/-- The result array after the region, entry by entry. -/
theorem arr1 (c : Dev nD) (i : Fin 50000) (j : Fin 128) :
    (dat1 (F := Ideal) V c).arrAt 2 cfg1.N (ix2 i j) = ∑ k : Fin 256, A1 V c (ix2 i k) * B1 V c (ix2 k j) := by
  rw [final1]
  rfl

end Cert.KernelIdeal.Gemm

end
-- ==== Proof.FormsDefs.lean ====
/-
  The two programs' host arithmetic around the matrix products, as named functions of arrays, and why they agree.

  Both programs build, from the edge list `ei : [2, 800000]`, the source words `s` and target words `d` of the
  850000 edges (the listed edges followed by one self loop per row), the degree `deg` of every row (the number of
  edges whose target it is) and the weight `dinv = 1/√deg` where `deg > 0`, `0` elsewhere.  A layer takes row features
  `h` and returns, at row `i`, the sum over the edges `e` with target `i` of `h[s e] · dinv[s e] · dinv[i]`.
  The reference scales each gathered edge row by `dinv[s e] · dinv[d e]` before adding the rows up at their targets
  (`RF.agg…`); the kernel scales the rows by `dinv` before gathering them and the sums by `dinv` afterwards (`KF.agg…`).
  The weights are non-negative numbers other than `+∞` (`dinv_ok`), so the two are one function of `h`
  (`agg256_eq`, `agg64_eq`: the general statement is `Cert.LibAggregate.agg_eq`).
-/
import proofs.«122016_j61864708932307_2_alg».proof.Proof.Gen.KernelIdeal
import proofs.«122016_j61864708932307_2_alg».proof.Proof.Gen.ReferenceIdeal
import Idealize.ShloMosaic.PureOps.Ideal

set_option maxRecDepth 16384

noncomputable section

open Idealize.ShloMosaic

/-! ## The reference's pieces -/

namespace Cert.RF

open Cert.ReferenceIdeal Cert.ReferenceIdeal.Facts₀ Cert.ReferenceIdeal.Facts

/-- Row `r` of the edge list as a vector of 800000 words. -/
def row0 (ei : IVec S2x800000 32) : IVec S800000 32 :=
  shapeCast _ (extractStridedSlice S1x800000 ![0, 0] ei slices_S2x800000_S1x800000_0_0) shapeCasts_S1x800000_S800000
def row1 (ei : IVec S2x800000 32) : IVec S800000 32 :=
  shapeCast _ (extractStridedSlice S1x800000 ![1, 0] ei slices_S2x800000_S1x800000_1_0) shapeCasts_S1x800000_S800000
/-- The source words: the listed sources, then `0 … 49999` (the self loops). -/
def cat (r : IVec S800000 32) : IVec S850000 32 :=
  concatenate S850000 0 [⟨S800000, r⟩, ⟨S50000, iotaInDim S50000 32 0⟩] concatenates_S800000_S50000_S850000_d0
def s (ei : IVec S2x800000 32) : IVec S850000 32 := cat (row0 ei)
/-- The target words: the listed targets, then `0 … 49999`. -/
def d (ei : IVec S2x800000 32) : IVec S850000 32 := cat (row1 ei)
/-- A vector of words as a column of start indices. -/
def col {α : Type} (v : S850000.Idx → α) : S850000x1.Idx → α := broadcastInDim S850000x1 ![0] bcast_S850000_S850000x1_0 v
/-- The number of edges whose target is each row, as a sum of ones. -/
def degOf (dv : IVec S850000 32) : FVec Ideal S50000 .f32 :=
  Host.scatterAdd scatter_S50000_S850000x1_S850000_n_0_0_1
    (broadcastInDim S50000 ![] bcast_S_S50000 (constant (F := Ideal) S_ .f32 0x00000000#32)) (col dv)
    (broadcastInDim S850000 ![] bcast_S_S850000 (constant (F := Ideal) S_ .f32 0x3F800000#32))
/-- `1/√deg` where `deg > 0`, `0` elsewhere. -/
def dinvOf (dv : IVec S850000 32) : FVec Ideal S50000 .f32 :=
  select (cmpf (F := Ideal) .ogt (degOf dv) (broadcastInDim S50000 ![] bcast_S_S50000 (constant (F := Ideal) S_ .f32 0x00000000#32)))
    (Host.rsqrt (degOf dv)) (broadcastInDim S50000 ![] bcast_S_S50000 (id (constant (F := Ideal) S_ .f32 0x00000000#32)))
def dinv (ei : IVec S2x800000 32) : FVec Ideal S50000 .f32 := dinvOf (d ei)
/-- A word below zero has 50000 added (a negative index counts from the end). -/
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- The edge weights `dinv[s e] · dinv[d e]`. -/
def norm (dv : FVec Ideal S50000 .f32) (sv dv' : IVec S850000 32) : FVec Ideal S850000 .f32 :=
  mulf (Host.gather gather_S50000_S850000x1_S850000_n_0_n_n_0_1_1 dv (col (wrap sv)))
    (Host.gather gather_S50000_S850000x1_S850000_n_0_n_n_0_1_1 dv (col (wrap dv')))
/-- One layer's aggregation of 256-wide rows: gather the source rows, scale each by its edge weight, add up at the targets. -/
def agg256 (h : FVec Ideal S50000x256 .f32) (dv : FVec Ideal S50000 .f32) (sv dv' : IVec S850000 32) : FVec Ideal S50000x256 .f32 :=
  Host.scatterAdd scatter_S50000x256_S850000x1_S850000x256_1_0_0_1
    (broadcastInDim S50000x256 ![] bcast_S_S50000x256 (constant (F := Ideal) S_ .f32 0x00000000#32)) (col dv')
    (mulf (Host.gather gather_S50000x256_S850000x1_S850000x256_1_0_n_n_0_1_1256 h (col (wrap sv)))
      (broadcastInDim S850000x256 ![0, 1] bcast_S850000x1_S850000x256_0_1 (col (norm dv sv dv'))))
/-- The same for 64-wide rows. -/
def agg64 (h : FVec Ideal S50000x64 .f32) (dv : FVec Ideal S50000 .f32) (sv dv' : IVec S850000 32) : FVec Ideal S50000x64 .f32 :=
  Host.scatterAdd scatter_S50000x64_S850000x1_S850000x64_1_0_0_1
    (broadcastInDim S50000x64 ![] bcast_S_S50000x64 (constant (F := Ideal) S_ .f32 0x00000000#32)) (col dv')
    (mulf (Host.gather gather_S50000x64_S850000x1_S850000x64_1_0_n_n_0_1_164 h (col (wrap sv)))
      (broadcastInDim S850000x64 ![0, 1] bcast_S850000x1_S850000x64_0_1 (col (norm dv sv dv'))))
/-- The bias row repeated down the rows. -/
def bias256 (b : FVec Ideal S256 .f32) : FVec Ideal S50000x256 .f32 :=
  broadcastInDim S50000x256 ![0, 1] bcast_S1x256_S50000x256_0_1 (broadcastInDim S1x256 ![1] bcast_S256_S1x256_1 b)
def bias64 (b : FVec Ideal S64 .f32) : FVec Ideal S50000x64 .f32 :=
  broadcastInDim S50000x64 ![0, 1] bcast_S1x64_S50000x64_0_1 (broadcastInDim S1x64 ![1] bcast_S64_S1x64_1 b)
/-- `max(z, 0)`. -/
def relu (z : FVec Ideal S50000x256 .f32) : FVec Ideal S50000x256 .f32 :=
  maximumf z (broadcastInDim S50000x256 ![] bcast_S_S50000x256 (constant (F := Ideal) S_ .f32 0x00000000#32))
/-- A row minus its maximum. -/
def shifted (z : FVec Ideal S50000x64 .f32) : FVec Ideal S50000x64 .f32 :=
  subf z (broadcastInDim S50000x64 ![0, 1] bcast_S50000x1_S50000x64_0_1 (broadcastInDim S50000x1 ![0] bcast_S50000_S50000x1_0
    (maximumf (broadcastInDim S50000 ![] bcast_S_S50000 (constant (F := Ideal) S_ .f32 0xFF800000#32))
      (Host.reduce FloatOps.maximumf z (constant (F := Ideal) S_ .f32 0xFF800000#32) reducesTo_S50000x64_S50000_d1 h_S_))))
/-- The row-wise log-softmax: the shifted row minus the logarithm of the sum of its exponentials. -/
def lsm (z : FVec Ideal S50000x64 .f32) : FVec Ideal S50000x64 .f32 :=
  subf (shifted z) (broadcastInDim S50000x64 ![0, 1] bcast_S50000x1_S50000x64_0_1 (Host.log (broadcastInDim S50000x1 ![0] bcast_S50000_S50000x1_0
    (Host.reduceAdd (Host.exp (shifted z)) (constant (F := Ideal) S_ .f32 0x00000000#32) reducesTo_S50000x64_S50000_d1 h_S_))))
/-- The reference's two layers and the log-softmax, of the arguments. -/
def result (x : FVec Ideal S50000x512 .f32) (ei : IVec S2x800000 32) (W1 : FVec Ideal S512x256 .f32) (b1 : FVec Ideal S256 .f32)
    (W2 : FVec Ideal S256x64 .f32) (b2 : FVec Ideal S64 .f32) : FVec Ideal S50000x64 .f32 :=
  lsm (addf (agg64 (Host.dotGeneral dot_S50000x256_S256x64_S50000x64_1_0_0_1_n_n none
      (relu (addf (agg256 (Host.dotGeneral dot_S50000x512_S512x256_S50000x256_1_0_0_1_n_n none x W1) (dinv ei) (s ei) (d ei)) (bias256 b1))) W2)
    (dinv ei) (s ei) (d ei)) (bias64 b2))

end Cert.RF

/-! ## The kernel program's pieces -/

namespace Cert.KF

open Cert.KernelIdeal Cert.KernelIdeal.Facts₀ Cert.KernelIdeal.Facts

def row0 (ei : IVec S2x800000 32) : IVec S800000 32 :=
  shapeCast _ (extractStridedSlice S1x800000 ![0, 0] ei slices_S2x800000_S1x800000_0_0) shapeCasts_S1x800000_S800000
def row1 (ei : IVec S2x800000 32) : IVec S800000 32 :=
  shapeCast _ (extractStridedSlice S1x800000 ![1, 0] ei slices_S2x800000_S1x800000_1_0) shapeCasts_S1x800000_S800000
def cat (r : IVec S800000 32) : IVec S850000 32 :=
  concatenate S850000 0 [⟨S800000, r⟩, ⟨S50000, iotaInDim S50000 32 0⟩] concatenates_S800000_S50000_S850000_d0
def s (ei : IVec S2x800000 32) : IVec S850000 32 := cat (row0 ei)
def d (ei : IVec S2x800000 32) : IVec S850000 32 := cat (row1 ei)
def col {α : Type} (v : S850000.Idx → α) : S850000x1.Idx → α := broadcastInDim S850000x1 ![0] bcast_S850000_S850000x1_0 v
def degOf (dv : IVec S850000 32) : FVec Ideal S50000 .f32 :=
  Host.scatterAdd scatter_S50000_S850000x1_S850000_n_0_0_1
    (broadcastInDim S50000 ![] bcast_S_S50000 (constant (F := Ideal) S_ .f32 0x00000000#32)) (col dv)
    (broadcastInDim S850000 ![] bcast_S_S850000 (constant (F := Ideal) S_ .f32 0x3F800000#32))
def dinvOf (dv : IVec S850000 32) : FVec Ideal S50000 .f32 :=
  select (cmpf (F := Ideal) .ogt (degOf dv) (broadcastInDim S50000 ![] bcast_S_S50000 (constant (F := Ideal) S_ .f32 0x00000000#32)))
    (Host.rsqrt (degOf dv)) (broadcastInDim S50000 ![] bcast_S_S50000 (id (constant (F := Ideal) S_ .f32 0x00000000#32)))
def dinv (ei : IVec S2x800000 32) : FVec Ideal S50000 .f32 := dinvOf (d ei)
def wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v
/-- The weights as a 256-wide array: row `i` is `dinv[i]` repeated. -/
def wide256 (dv : FVec Ideal S50000 .f32) : FVec Ideal S50000x256 .f32 :=
  broadcastInDim S50000x256 ![0, 1] bcast_S50000x1_S50000x256_0_1 (broadcastInDim S50000x1 ![0] bcast_S50000_S50000x1_0 dv)
def wide64 (dv : FVec Ideal S50000 .f32) : FVec Ideal S50000x64 .f32 :=
  broadcastInDim S50000x64 ![0, 1] bcast_S50000x1_S50000x64_0_1 (broadcastInDim S50000x1 ![0] bcast_S50000_S50000x1_0 dv)
/-- One layer's aggregation of 256-wide rows: scale the rows, gather the source rows, add up at the targets, scale the sums. -/
def agg256 (h : FVec Ideal S50000x256 .f32) (dv : FVec Ideal S50000 .f32) (sv dv' : IVec S850000 32) : FVec Ideal S50000x256 .f32 :=
  mulf (wide256 dv) (Host.scatterAdd scatter_S50000x256_S850000x1_S850000x256_1_0_0_1
    (broadcastInDim S50000x256 ![] bcast_S_S50000x256 (constant (F := Ideal) S_ .f32 0x00000000#32)) (col dv')
    (Host.gather gather_S50000x256_S850000x1_S850000x256_1_0_n_n_0_1_1256 (mulf h (wide256 dv)) (col (wrap sv))))
def agg64 (h : FVec Ideal S50000x64 .f32) (dv : FVec Ideal S50000 .f32) (sv dv' : IVec S850000 32) : FVec Ideal S50000x64 .f32 :=
  mulf (wide64 dv) (Host.scatterAdd scatter_S50000x64_S850000x1_S850000x64_1_0_0_1
    (broadcastInDim S50000x64 ![] bcast_S_S50000x64 (constant (F := Ideal) S_ .f32 0x00000000#32)) (col dv')
    (Host.gather gather_S50000x64_S850000x1_S850000x64_1_0_n_n_0_1_164 (mulf h (wide64 dv)) (col (wrap sv))))

end Cert.KF

end
-- ==== Proof.LibGatherRows.lean ====
/-
  One row of a table per position: `stablehlo.gather` of a rank-2 operand `[N, D]` at a column `[E, 1]` of start
  indices, with offset axis 1, collapsed axis 0, start index map `[0]`, the index vector on axis 1 and slices
  `[1, D]` — what `x[idx]` of a matrix at a vector of row numbers lowers to. The result element `(e, k)` is the
  operand at row `idx[e, 0]`, read as a signed integer and clamped into `[0, N − 1]`, and column `k`.
-/
import Idealize.ShloMosaic.Lib.ValueIdx

noncomputable section

namespace Idealize.ShloMosaic.GatherRows

open Idealize.ShloMosaic Idealize.ShloMosaic.ValueIdx

variable {α : Type}

/-- Those dimension numbers for an operand `[N, D]`, start indices `[E, 1]` and result `[E, D]`; their conditions
    `wf` are decided on a program's literal shapes. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for position `e`: the start index `idx[e, 0]` read signed, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE GATHER READ AT `(e, k)`: the operand at row `rowOf idx e`, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf hN idx e) k) := by
  unfold Host.gather
  congr 1
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = _
    rw [GatherDims.batchCoord_eq_zero _ _ _ List.not_mem_nil]
    unfold GatherDims.start
    rw [dif_neg (show (1 : Fin 2) ∉ (rowsDims N D E wf).startIndexMap from fun h => Nat.one_ne_zero (congrArg Fin.val (List.mem_singleton.mp h)))]
    simp only [Nat.add_zero, Nat.zero_add]
    rfl

end Idealize.ShloMosaic.GatherRows

end
-- ==== Proof.LibBroadcastRead.lean ====
/-
  Host broadcasts read at coordinates, and sums over small index sets as sums over rows.

  A scalar broadcast to any shape reads the scalar everywhere; an `[a]` vector broadcast along a new unit axis to an
  `[a, 1]` column reads, at `(i, u)`, the vector at `i`; an `[a, 1]` column broadcast to `[a, b]` reads, at `(i, j)`,
  the column at `(i, 0)`. A sum over the indices of an `[n]` vector, or of an `[n, 1]` column, is the sum over its `n` rows.
-/
import Idealize.ShloMosaic.Lib.Pipeline.Value
import Idealize.ShloMosaic.Lib.ValueIdx

namespace Cert.LibBroadcastRead

open Idealize.ShloMosaic Idealize.ShloMosaic.ValueIdx

variable {α : Type}

/-- A rank-0 value broadcast to any shape reads, at every index, the value. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An `[a]` vector broadcast to an `[a, 1]` column along axis 0 reads, at `(i, u)`, the vector at `i`. -/
theorem bcast_column_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along both axes reads, at `(i, j)`, the column at `(i, 0)`. -/
theorem bcast_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A sum over the indices of an `[n]` vector is the sum over its entries. -/
theorem sum_vector {M : Type*} [AddCommMonoid M] {n : ℕ} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ f (fun r => f (ix1 r))
    fun i => congrArg f (eq_ix1 i)

/-- A sum over the indices of an `[n, 1]` column is the sum over its rows. -/
theorem sum_column {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibBroadcastRead
-- ==== Proof.LibIdxPair.lean ====
/-
  The two-column array of start indices that `x[arange(R), t]` builds, read at an index.

  The program makes each of the two index columns by broadcasting a vector `[R]` to a column `[R, 1]`, joins the two
  columns along axis 1 into `[R, 2]`, and before that "wraps" each vector: an entry below zero has the axis's extent added
  (a negative index counts from the axis's end). Read at row `r`: column 0 of the joined array is the first vector's entry `r`, column 1 the
  second's; a broadcast scalar reads its one value; and the wrap leaves a non-negative entry as it is, so the wrapped
  `arange` at `r` is the word of `r`, which read back as a signed integer is `r` (for `r` below `2³¹`).
-/
import Idealize.ShloMosaic.Lib.ValueIdx
import Idealize.ShloMosaic.Lib.Pipeline.Value

noncomputable section

namespace Cert.LibIdxPair

open Idealize.ShloMosaic Idealize.ShloMosaic.ValueIdx

variable {α : Type}

/-- Column 0 of two joined columns is the first column. -/
theorem concat_col0 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (0 : Fin 2))
      = a (ix2 r (0 : Fin 1)) := by
  refine concatenate_pair_apply_left 1 a b hc (ix2 r (0 : Fin 2)) rfl (ix2 r (0 : Fin 1)) ?_
  intro c
  match c with
  | ⟨0, _⟩ => rfl
  | ⟨1, _⟩ => rfl

/-- Column 1 of two joined columns is the second column. -/
theorem concat_col1 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (1 : Fin 2))
      = b (ix2 r (0 : Fin 1)) := by
  refine concatenate_pair_apply_right 1 a b hc (ix2 r (1 : Fin 2)) rfl rfl (ix2 r (0 : Fin 1)) ?_ ?_
  · intro c hne
    match c with
    | ⟨0, _⟩ => rfl
    | ⟨1, _⟩ => exact absurd rfl hne
  · rfl

/-- A vector broadcast to a column reads its entry of the row. -/
theorem bcast_col_apply {R : Nat} (hb : (⟨1, ![R]⟩ : Shape).BroadcastsInDim (⟨2, ![R, 1]⟩ : Shape) ![0])
    (v : (⟨1, ![R]⟩ : Shape).Idx → α) (r : Fin R) :
    broadcastInDim (⟨2, ![R, 1]⟩ : Shape) ![0] hb v (ix2 r (0 : Fin 1)) = v (ix1 r) := by
  refine broadcastInDim_apply _ hb v _ (ix1 r) fun a => ?_
  match a with
  | ⟨0, _⟩ =>
    show r.val = if R = 1 then 0 else r.val
    have := r.isLt
    split <;> omega

/-- A scalar broadcast to a vector reads its one value. -/
theorem bcast_scalar_apply {R : Nat} (hb : (⟨0, ![]⟩ : Shape).BroadcastsInDim (⟨1, ![R]⟩ : Shape) ![])
    (v : (⟨0, ![]⟩ : Shape).Idx → α) (i : (⟨1, ![R]⟩ : Shape).Idx) :
    broadcastInDim (⟨1, ![R]⟩ : Shape) ![] hb v i = v ix0 :=
  broadcastInDim_apply _ hb v i ix0 (fun a => a.elim0)

/-- The word of a natural below `2³¹`, read signed, is that natural. -/
theorem toInt_ofNat_of_lt (r : Nat) (hr : r < 2 ^ 31) : (BitVec.ofNat 32 r).toInt = (r : Int) := by
  rw [BitVec.toInt_eq_toNat_cond, BitVec.toNat_ofNat]
  split <;> omega

/-- … and clamped below at zero and read as a natural it is still that natural. -/
theorem toInt_toNat_ofNat_of_lt (r : Nat) (hr : r < 2 ^ 31) : (BitVec.ofNat 32 r).toInt.toNat = r := by
  rw [toInt_ofNat_of_lt r hr]; rfl

/-- A word that is not negative is not below zero. -/
theorem cmpi_slt_zero_of_nonneg (x : BitVec 32) (h : 0 ≤ x.toInt) : IntOp.cmpi .slt x 0#32 = 0#1 := by
  have e : x.slt 0#32 = false := by
    rw [BitVec.slt, BitVec.toInt_zero]
    exact decide_eq_false (by omega)
  show BitVec.ofBool (x.slt 0#32) = 0#1
  rw [e]; rfl

/-- The wrap of a non-negative index is the index. -/
theorem wrap_of_nonneg (x n : BitVec 32) (h : 0 ≤ x.toInt) :
    Scalar.select (IntOp.cmpi .slt x 0#32) (IntOp.addi x n) x = x := by
  rw [cmpi_slt_zero_of_nonneg x h, select_zero]

/-- The wrapped `arange` at `r` is the word of `r`. -/
theorem wrap_ofNat (r : Nat) (hr : r < 2 ^ 31) (n : BitVec 32) :
    Scalar.select (IntOp.cmpi .slt (BitVec.ofNat 32 r) 0#32) (IntOp.addi (BitVec.ofNat 32 r) n) (BitVec.ofNat 32 r)
      = BitVec.ofNat 32 r :=
  wrap_of_nonneg _ n (by rw [toInt_ofNat_of_lt r hr]; omega)

end Cert.LibIdxPair

end
-- ==== Proof.LibAggregate.lean ====
/-
  A symmetric-normalised neighbourhood sum, arranged two ways.

  Given row features `h : [N, W]`, one weight per row `dinv : [N]`, and for each of `E` edges a source row and a target
  row, the aggregated feature of row `i` is the sum over the edges `e` whose target is `i` of
  `h[src e] · dinv[src e] · dinv[i]`.  One arrangement scales every gathered edge row by the product
  `dinv[src e] · dinv[tgt e]` and then adds the edge rows up at their targets; the other scales the ROWS by `dinv` once
  before they are gathered, adds the gathered rows up at their targets, and scales row `i` of the sums by `dinv[i]` once.
  An edge is added at row `i` exactly when its target word, read as a signed integer, is `i` (a target outside
  `[0, N)` is dropped), so on the edges added at `i` the factor `dinv[tgt e]` IS `dinv[i]`; and a factor that is a
  non-negative number other than `+∞` moves across a finite sum of extended reals, whatever the terms are.  The
  weights here are `1/√deg` where `deg > 0` and `0` elsewhere: non-negative and never `+∞`, for any `deg`.
-/
import Idealize.ShloMosaic.Lib.ValueIdx
import Idealize.ShloMosaic.Lib.Pipeline.Value
import Idealize.ShloMosaic.PureOps.Ideal.Laws
import proofs.«122016_j61864708932307_2_alg».proof.Proof.LibGatherRows
import proofs.«122016_j61864708932307_2_alg».proof.Proof.LibBroadcastRead
import proofs.«122016_j61864708932307_2_alg».proof.Proof.LibIdxPair

noncomputable section

namespace Cert.LibAggregate

open Idealize.ShloMosaic Idealize.ShloMosaic.ValueIdx Idealize.ShloMosaic.GatherRows
open Cert.LibBroadcastRead Cert.LibIdxPair

/-! ## A non-negative factor other than `+∞` moves across a finite sum of extended reals -/

theorem mul_sum {ι : Type} (x : EReal) (h0 : 0 ≤ x) (ht : x ≠ ⊤) (s : Finset ι) (u : ι → EReal) :
    x * ∑ j ∈ s, u j = ∑ j ∈ s, x * u j := by
  classical
  induction s using Finset.induction_on with
  | empty => simp
  | insert a s ha ih =>
    rw [Finset.sum_insert ha, Finset.sum_insert ha, EReal.left_distrib_of_nonneg_of_ne_top h0 ht, ih]

/-! ## The guarded reciprocal square root is a non-negative number other than `+∞` -/

/-- `1/√x` where `x > 0` and `0` elsewhere: at `x = +∞` the reciprocal root is `0`, at a positive real it is a
    positive real, and where `x ≤ 0` the guard gives `0`. -/
theorem guarded_rsqrt (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  by_cases hx : 0 < x
  · have hc : Ideal.cmp .ogt x 0 = 1#1 := by simp [Ideal.cmp, hx]
    rw [hc, select_one]
    induction x using EReal.rec with
    | bot => exact absurd hx (by simp)
    | top => exact ⟨by rw [Ideal.rsqrt_top], by rw [Ideal.rsqrt_top]; exact EReal.zero_ne_top⟩
    | coe r =>
      have hr : 0 < r := by exact_mod_cast hx
      rw [Ideal.rsqrt_coe, if_neg (not_lt.mpr hr.le), if_neg hr.ne']
      exact ⟨by exact_mod_cast (inv_nonneg.mpr (Real.sqrt_nonneg r)), EReal.coe_ne_top _⟩
  · have hc : Ideal.cmp .ogt x 0 = 0#1 := by simp [Ideal.cmp, hx]
    rw [hc, select_zero]
    exact ⟨le_refl 0, EReal.zero_ne_top⟩

/-- The same for arrays: where the guard and the alternative are all-zero arrays, every entry of
    `select (deg > 0) (1/√deg) 0` is a non-negative number other than `+∞`. -/
theorem guarded_rsqrt_apply {s : Shape} (deg Z Z' : FVec Ideal s .f32) (hZ : ∀ i, Z i = 0) (hZ' : ∀ i, Z' i = 0)
    (i : s.Idx) :
    0 ≤ select (cmpf (F := Ideal) .ogt deg Z) (Host.rsqrt deg) Z' i
      ∧ select (cmpf (F := Ideal) .ogt deg Z) (Host.rsqrt deg) Z' i ≠ ⊤ :=
  guarded_rsqrt (deg i) (Z i) (Z' i) (hZ i) (hZ' i)

/-! ## One entry of a vector per position: the gather of `dinv[idx]` -/

/-- `stablehlo.gather` of a vector `[N]` at a column `[E, 1]` of start indices (no offset axis, collapsed axis 0, start
    index map `[0]`, the index vector on axis 1, slices `[1]`): what `v[idx]` of a vector lowers to. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- That gather read at `e`: the vector at `idx[e, 0]` read signed and clamped into `[0, N − 1]` — the same row a
    gather of matrix rows at the same start indices reads. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Rows added up at their targets: where an update lands -/

/-- `stablehlo.scatter` of edge rows `[E, W]` into `[N, W]` at a column `[E, 1]` of target rows (update window axis 1,
    inserted axis 0, the one scatter index names operand axis 0, the index vector on axis 1): what a segment sum of rows
    lowers to. -/
abbrev scatRows (N W E : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- Update entry `(e, f)` lands at `t` only if the target word `idx[e, 0]`, read signed, is `t`'s row, and `f` is
    `t`'s column. -/
theorem landing {N W E w : Nat} (wf : ScatterDims.WF ⟨2, ![N, W]⟩ ⟨2, ![E, 1]⟩ ⟨2, ![E, W]⟩ [1] [0] [0] 1)
    (idx : IVec ⟨2, ![E, 1]⟩ w) (e : Fin E) (f : Fin W) (t : (⟨2, ![N, W]⟩ : Shape).Idx)
    (h : (scatRows N W E wf).resultIdx? (ix2 e f) idx = some t) :
    (idx (ix2 e (0 : Fin 1))).toInt = ((t 0).val : Int) ∧ (t 1).val = f.val := by
  have hs0 : (scatRows N W E wf).start (ix2 e f) idx 0 = (idx (ix2 e (0 : Fin 1))).toInt := by
    unfold ScatterDims.start
    rw [dif_pos (show (0 : Fin 2) ∈ (scatRows N W E wf).scatterDimsToOperandDims from List.mem_singleton.mpr rfl)]
    have hsi : (scatRows N W E wf).siIdx (ix2 e f) ⟨List.idxOf (0 : Fin 2) (scatRows N W E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (scatRows N W E wf).window (ix2 e f) 0 = 0 := by
    have hk : (0 : Fin 2) ∉ (scatRows N W E wf).sKept := by
      show (0 : Fin 2) ∉ (List.finRange 2).filter (fun a => a ∉ [(0 : Fin 2)])
      decide
    unfold ScatterDims.window
    rw [dif_neg hk]
  have hs1 : (scatRows N W E wf).start (ix2 e f) idx 1 = 0 := by
    unfold ScatterDims.start
    rw [dif_neg (fun h => Nat.one_ne_zero (congrArg Fin.val (List.mem_singleton.mp h)))]
  have hw1 : (scatRows N W E wf).window (ix2 e f) 1 = f.val := by
    have hk : (1 : Fin 2) ∈ (scatRows N W E wf).sKept := by
      show (1 : Fin 2) ∈ (List.finRange 2).filter (fun a => a ∉ [(0 : Fin 2)])
      decide
    unfold ScatterDims.window
    rw [dif_pos hk]
    rfl
  unfold ScatterDims.resultIdx? at h
  split at h
  · rename_i hc
    have ht := Option.some.inj h
    have h0 := congrArg (fun g => (g 0).val) ht
    have h1 := congrArg (fun g => (g 1).val) ht
    dsimp only at h0 h1
    have c0 := hc 0
    rw [hs0, hw0] at h0 c0
    rw [hs1, hw1] at h1
    constructor
    · omega
    · omega
  · cases h

/-! ## The two arrangements agree -/

/-- Scaling the rows by `dinv` before the gather and the sums by `dinv` after the scatter gives what scaling every
    gathered edge row by `dinv[src] · dinv[tgt]` gives.  `s'` holds the source rows' words as the gathers read them; the
    target words `d` are read as they are by the scatter, and through the wrap "a word below zero has `dN`'s put in its
    place" by the gather of `dinv[tgt]` — on an edge the scatter does not drop the word is non-negative and the wrap
    leaves it. `Z` is the all-zero array the sums start from. -/
theorem agg_eq {N W E : Nat} (hN : 0 < N)
    (wfg : GatherDims.WF ⟨2, ![N, W]⟩ ⟨2, ![E, 1]⟩ ⟨2, ![E, W]⟩ [1] [0] [] [0] [] 1 ![1, W])
    (wfv : GatherDims.WF ⟨1, ![N]⟩ ⟨2, ![E, 1]⟩ ⟨1, ![E]⟩ [] [0] [] [0] [] 1 ![1])
    (wfs : ScatterDims.WF ⟨2, ![N, W]⟩ ⟨2, ![E, 1]⟩ ⟨2, ![E, W]⟩ [1] [0] [0] 1)
    (hbN1 : (⟨1, ![N]⟩ : Shape).BroadcastsInDim ⟨2, ![N, 1]⟩ (![0] : Fin 1 → Fin 2))
    (hbNW : (⟨2, ![N, 1]⟩ : Shape).BroadcastsInDim ⟨2, ![N, W]⟩ (![0, 1] : Fin 2 → Fin 2))
    (hbE1 : (⟨1, ![E]⟩ : Shape).BroadcastsInDim ⟨2, ![E, 1]⟩ (![0] : Fin 1 → Fin 2))
    (hbEW : (⟨2, ![E, 1]⟩ : Shape).BroadcastsInDim ⟨2, ![E, W]⟩ (![0, 1] : Fin 2 → Fin 2))
    (h : FVec Ideal ⟨2, ![N, W]⟩ .f32) (dinv : FVec Ideal ⟨1, ![N]⟩ .f32)
    (hd : ∀ i, 0 ≤ dinv i ∧ dinv i ≠ ⊤)
    (Z : FVec Ideal ⟨2, ![N, W]⟩ .f32) (hZ : ∀ i, Z i = 0)
    (s' d z0 dN : IVec ⟨1, ![E]⟩ 32) (hz0 : ∀ i, z0 i = 0#32) :
    mulf (broadcastInDim ⟨2, ![N, W]⟩ ![0, 1] hbNW (broadcastInDim ⟨2, ![N, 1]⟩ ![0] hbN1 dinv))
      (Host.scatterAdd (scatRows N W E wfs) Z (broadcastInDim ⟨2, ![E, 1]⟩ ![0] hbE1 d)
        (Host.gather (rowsDims N W E wfg)
          (mulf h (broadcastInDim ⟨2, ![N, W]⟩ ![0, 1] hbNW (broadcastInDim ⟨2, ![N, 1]⟩ ![0] hbN1 dinv)))
          (broadcastInDim ⟨2, ![E, 1]⟩ ![0] hbE1 s')))
    = Host.scatterAdd (scatRows N W E wfs) Z (broadcastInDim ⟨2, ![E, 1]⟩ ![0] hbE1 d)
        (mulf (Host.gather (rowsDims N W E wfg) h (broadcastInDim ⟨2, ![E, 1]⟩ ![0] hbE1 s'))
          (broadcastInDim ⟨2, ![E, W]⟩ ![0, 1] hbEW (broadcastInDim ⟨2, ![E, 1]⟩ ![0] hbE1
            (mulf (Host.gather (vecDims N E wfv) dinv (broadcastInDim ⟨2, ![E, 1]⟩ ![0] hbE1 s'))
              (Host.gather (vecDims N E wfv) dinv (broadcastInDim ⟨2, ![E, 1]⟩ ![0] hbE1
                (select (cmpi .slt d z0) dN d))))))) := by
  funext t
  obtain ⟨i, f, rfl⟩ : ∃ (i : Fin N) (f : Fin W), t = ix2 i f := ⟨t 0, t 1, eq_ix2 t⟩
  rw [mulf_apply, bcast_rows_apply hbNW, bcast_column_apply hbN1]
  simp only [Host.scatterAdd, Ideal.hostScatterAdd_def, Ideal.hostScatterAdd]
  rw [hZ, zero_add, zero_add, mul_sum _ (hd _).1 (hd _).2]
  refine Finset.sum_congr rfl fun j hj => ?_
  have hj' := (Finset.mem_filter.mp hj).2
  obtain ⟨e, f', rfl⟩ : ∃ (e : Fin E) (f' : Fin W), j = ix2 e f' := ⟨j 0, j 1, eq_ix2 j⟩
  obtain ⟨hrow, _⟩ := landing wfs _ e f' _ hj'
  rw [bcast_column_apply hbE1] at hrow
  have hrow' : (d (ix1 e)).toInt = (i.val : Int) := hrow
  have htgt : rowOf hN (broadcastInDim ⟨2, ![E, 1]⟩ ![0] hbE1 (select (cmpi .slt d z0) dN d)) e = i := by
    refine Fin.ext ?_
    show min ((broadcastInDim ⟨2, ![E, 1]⟩ ![0] hbE1 (select (cmpi .slt d z0) dN d)) (ix2 e (0 : Fin 1))).toInt.toNat (N - 1) = i.val
    rw [bcast_column_apply hbE1, select_apply]
    show min (Scalar.select (IntOp.cmpi .slt (d (ix1 e)) (z0 (ix1 e))) (dN (ix1 e)) (d (ix1 e))).toInt.toNat (N - 1) = i.val
    rw [hz0, cmpi_slt_zero_of_nonneg _ (by rw [hrow']; exact Int.natCast_nonneg _), select_zero, hrow']
    have := i.isLt
    omega
  rw [gather_rows_apply hN wfg, mulf_apply, bcast_rows_apply hbNW, bcast_column_apply hbN1]
  rw [mulf_apply, gather_rows_apply hN wfg, bcast_rows_apply hbEW, bcast_column_apply hbE1, mulf_apply,
    gather_vec_apply hN wfv, gather_vec_apply hN wfv, htgt]
  rw [mul_comm (dinv (ix1 i)), mul_assoc]

end Cert.LibAggregate

end
-- ==== Proof.FormsAgg.lean ====
/-
  The two arrangements of a layer's aggregation are one function of the row features, because the weights are
  non-negative numbers other than `+∞` whatever the degrees are.
-/
import proofs.«122016_j61864708932307_2_alg».proof.Proof.FormsDefs
import proofs.«122016_j61864708932307_2_alg».proof.Proof.LibAggregate
import proofs.«122016_j61864708932307_2_alg».proof.Proof.LibBroadcastRead

set_option maxHeartbeats 400000

noncomputable section

namespace Cert.Forms

open Idealize.ShloMosaic Idealize.ShloMosaic.ValueIdx
open Cert.LibAggregate Cert.LibBroadcastRead

/-- A broadcast zero constant reads `0` everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [bcast_scalar_apply, constant_apply, Ideal.ofBits_zero_f32]

/-- The weights are non-negative numbers other than `+∞`, whatever the target words are. -/
theorem dinvOf_ok (dv : IVec Cert.KernelIdeal.S850000 32) (i : Cert.KernelIdeal.S50000.Idx) :
    0 ≤ Cert.KF.dinvOf dv i ∧ Cert.KF.dinvOf dv i ≠ ⊤ := by
  unfold Cert.KF.dinvOf
  exact guarded_rsqrt_apply _ _ _ (fun j => zeros_apply _ j) (fun j => zeros_apply _ j) i

theorem agg256_eq (h : FVec Ideal Cert.KernelIdeal.S50000x256 .f32) (dv : FVec Ideal Cert.KernelIdeal.S50000 .f32)
    (hd : ∀ i, 0 ≤ dv i ∧ dv i ≠ ⊤) (sv dv' : IVec Cert.KernelIdeal.S850000 32) :
    Cert.KF.agg256 h dv sv dv' = Cert.RF.agg256 h dv sv dv' := by
  unfold Cert.KF.agg256 Cert.RF.agg256 Cert.KF.wide256 Cert.RF.norm Cert.KF.col Cert.RF.col Cert.RF.wrap
  exact agg_eq (N := 50000) (W := 256) (E := 850000) (by decide)
    Cert.KernelIdeal.Facts₀.gather_S50000x256_S850000x1_S850000x256_1_0_n_n_0_1_1256_wf
    Cert.ReferenceIdeal.Facts₀.gather_S50000_S850000x1_S850000_n_0_n_n_0_1_1_wf
    Cert.KernelIdeal.Facts₀.scatter_S50000x256_S850000x1_S850000x256_1_0_0_1_wf
    Cert.KernelIdeal.Facts₀.bcast_S50000_S50000x1_0 Cert.KernelIdeal.Facts₀.bcast_S50000x1_S50000x256_0_1
    Cert.KernelIdeal.Facts₀.bcast_S850000_S850000x1_0 Cert.ReferenceIdeal.Facts₀.bcast_S850000x1_S850000x256_0_1
    h dv hd _ (fun i => zeros_apply _ i) (Cert.KF.wrap sv) dv' _ _
    (fun i => by rw [bcast_scalar_apply]; rfl)

theorem agg64_eq (h : FVec Ideal Cert.KernelIdeal.S50000x64 .f32) (dv : FVec Ideal Cert.KernelIdeal.S50000 .f32)
    (hd : ∀ i, 0 ≤ dv i ∧ dv i ≠ ⊤) (sv dv' : IVec Cert.KernelIdeal.S850000 32) :
    Cert.KF.agg64 h dv sv dv' = Cert.RF.agg64 h dv sv dv' := by
  unfold Cert.KF.agg64 Cert.RF.agg64 Cert.KF.wide64 Cert.RF.norm Cert.KF.col Cert.RF.col Cert.RF.wrap
  exact agg_eq (N := 50000) (W := 64) (E := 850000) (by decide)
    Cert.KernelIdeal.Facts₀.gather_S50000x64_S850000x1_S850000x64_1_0_n_n_0_1_164_wf
    Cert.ReferenceIdeal.Facts₀.gather_S50000_S850000x1_S850000_n_0_n_n_0_1_1_wf
    Cert.KernelIdeal.Facts₀.scatter_S50000x64_S850000x1_S850000x64_1_0_0_1_wf
    Cert.KernelIdeal.Facts₀.bcast_S50000_S50000x1_0 Cert.KernelIdeal.Facts₀.bcast_S50000x1_S50000x64_0_1
    Cert.KernelIdeal.Facts₀.bcast_S850000_S850000x1_0 Cert.ReferenceIdeal.Facts₀.bcast_S850000x1_S850000x64_0_1
    h dv hd _ (fun i => zeros_apply _ i) (Cert.KF.wrap sv) dv' _ _
    (fun i => by rw [bcast_scalar_apply]; rfl)

end Cert.Forms

end
-- ==== Proof.FormsEq.lean ====
/-
  The edge words, the degrees and the weights are computed by the same operations in both programs: the two
  programs' named pieces are one function each.
-/
import proofs.«122016_j61864708932307_2_alg».proof.Proof.FormsDefs

noncomputable section

namespace Cert.Forms

open Idealize.ShloMosaic

theorem row0_eq (ei : IVec Cert.KernelIdeal.S2x800000 32) : Cert.KF.row0 ei = Cert.RF.row0 ei := rfl
theorem row1_eq (ei : IVec Cert.KernelIdeal.S2x800000 32) : Cert.KF.row1 ei = Cert.RF.row1 ei := rfl
theorem cat_eq (r : IVec Cert.KernelIdeal.S800000 32) : Cert.KF.cat r = Cert.RF.cat r := rfl
theorem s_eq (ei : IVec Cert.KernelIdeal.S2x800000 32) : Cert.KF.s ei = Cert.RF.s ei := rfl
theorem d_eq (ei : IVec Cert.KernelIdeal.S2x800000 32) : Cert.KF.d ei = Cert.RF.d ei := rfl
theorem degOf_eq (dv : IVec Cert.KernelIdeal.S850000 32) : Cert.KF.degOf dv = Cert.RF.degOf dv := rfl
theorem dinvOf_eq (dv : IVec Cert.KernelIdeal.S850000 32) : Cert.KF.dinvOf dv = Cert.RF.dinvOf dv := rfl
theorem dinv_eq (ei : IVec Cert.KernelIdeal.S2x800000 32) : Cert.KF.dinv ei = Cert.RF.dinv ei := rfl
theorem wrap_eq (v : IVec Cert.KernelIdeal.S850000 32) : Cert.KF.wrap v = Cert.RF.wrap v := rfl

end Cert.Forms

end
-- ==== Proof.BridgeForms.lean ====
/-
  The kernel program's host arithmetic, stretch by stretch, is the reference's: an aggregation with the bias added is
  the reference's aggregation with the bias added (the two arrangements agree because the weights are non-negative numbers
  other than `+∞`), the rectifier and the row-wise log-softmax are the same operations, and the edge words and the
  weights are computed by the same operations.
-/
import proofs.«122016_j61864708932307_2_alg».proof.Proof.KernelWalkDefs
import proofs.«122016_j61864708932307_2_alg».proof.Proof.FormsAgg
import proofs.«122016_j61864708932307_2_alg».proof.Proof.FormsEq

set_option maxHeartbeats 400000

noncomputable section

namespace Cert.Bridge

open Idealize.ShloMosaic
open Cert.KernelIdeal.Walk

theorem sT_eq (ei : IVec Cert.KernelIdeal.S2x800000 32) : sT ei = Cert.RF.s ei := rfl
theorem dT_eq (ei : IVec Cert.KernelIdeal.S2x800000 32) : dT ei = Cert.RF.d ei := rfl
theorem dinvT_eq (ei : IVec Cert.KernelIdeal.S2x800000 32) : dinvT ei = Cert.KF.dinvOf (Cert.KF.d ei) := rfl
theorem dinvT_eq' (ei : IVec Cert.KernelIdeal.S2x800000 32) : dinvT ei = Cert.RF.dinv ei := rfl

/-- The log-softmax is the same operations in both programs. -/
theorem lsmT_eq (z : FVec Ideal Cert.KernelIdeal.S50000x64 .f32) : lsmT z = Cert.RF.lsm z := rfl

/-- The kernel program's first aggregation with its bias, in the reference's arrangement. -/
theorem agg1T_eq (A0 : FVec Ideal Cert.KernelIdeal.S50000x256 .f32) (dv : FVec Ideal Cert.KernelIdeal.S50000 .f32)
    (hd : ∀ i, 0 ≤ dv i ∧ dv i ≠ ⊤) (sv dv' : IVec Cert.KernelIdeal.S850000 32) (b1 : FVec Ideal Cert.KernelIdeal.S256 .f32) :
    agg1T A0 dv sv dv' b1 = addf (Cert.RF.agg256 A0 dv sv dv') (Cert.RF.bias256 b1) := by
  have e : agg1T A0 dv sv dv' b1 = addf (Cert.KF.agg256 A0 dv sv dv') (Cert.RF.bias256 b1) := rfl
  rw [e, Cert.Forms.agg256_eq A0 dv hd sv dv']

/-- The kernel program's second aggregation with its bias, in the reference's arrangement, of the left 64 columns. -/
theorem agg2T_eq (A1 : FVec Ideal Cert.KernelIdeal.S50000x128 .f32) (dv : FVec Ideal Cert.KernelIdeal.S50000 .f32)
    (hd : ∀ i, 0 ≤ dv i ∧ dv i ≠ ⊤) (sv dv' : IVec Cert.KernelIdeal.S850000 32) (b2 : FVec Ideal Cert.KernelIdeal.S64 .f32) :
    agg2T A1 dv sv dv' b2
      = addf (Cert.RF.agg64 (extractStridedSlice Cert.KernelIdeal.S50000x64 ![0, 0] A1
          Cert.KernelIdeal.Facts₀.slices_S50000x128_S50000x64_0_0) dv sv dv') (Cert.RF.bias64 b2) := by
  have e : agg2T A1 dv sv dv' b2 = addf (Cert.KF.agg64 (extractStridedSlice Cert.KernelIdeal.S50000x64 ![0, 0] A1
      Cert.KernelIdeal.Facts₀.slices_S50000x128_S50000x64_0_0) dv sv dv') (Cert.RF.bias64 b2) := rfl
  rw [e, Cert.Forms.agg64_eq _ dv hd sv dv']

end Cert.Bridge

end
-- ==== Proof.BridgeGemm.lean ====
/-
  The two matrix products.  A kernel's product of the operands narrowed to a shorter float format is the host's product
  of the operands as they are (a change of format is the identity on the extended reals); and the left 64 columns of
  the product with the second weight matrix padded by 64 zero columns on the right are the product with the matrix as it
  is: column `j < 64` of the padded matrix is column `j` of the matrix.
-/
import proofs.«122016_j61864708932307_2_alg».proof.Proof.KernelWalkDefs
import proofs.«122016_j61864708932307_2_alg».proof.Proof.FormsDefs
import proofs.«122016_j61864708932307_2_alg».proof.Proof.LibGemm
import Idealize.ShloMosaic.Lib.Pipeline.Value
import Idealize.ShloMosaic.Lib.ValueIdx

set_option maxHeartbeats 400000

noncomputable section

namespace Cert.Bridge

open Idealize.ShloMosaic Idealize.ShloMosaic.ValueIdx
open Cert.KernelIdeal.Walk

/-- The first product: rows of `x` against columns of `W1`. -/
theorem prod_eq_dot1 (x : FVec Ideal Cert.KernelIdeal.S50000x512 .f32) (W1 : FVec Ideal Cert.KernelIdeal.S512x256 .f32)
    (h : FTy.bf16.bits < FTy.f32.bits) :
    Cert.Gemm.prod (M := 50000) (K := 512) (N := 256) (truncf (F := Ideal) .bf16 x h) (truncf (F := Ideal) .bf16 W1 h)
      = Host.dotGeneral (F := Ideal) Cert.ReferenceIdeal.dot_S50000x512_S512x256_S50000x256_1_0_0_1_n_n none x W1 := by
  rw [Cert.Gemm.host_eq_prod Cert.ReferenceIdeal.dot_S50000x512_S512x256_S50000x256_1_0_0_1_n_n rfl none x W1]
  rfl

/-- Column `j < 64` of the padded second weight matrix is column `j` of the matrix. -/
theorem padT_apply (W2 : FVec Ideal Cert.KernelIdeal.S256x64 .f32) (k : Fin 256) (j : Fin 64) (hj : j.val < 128) :
    padT W2 (ix2 k (⟨j.val, hj⟩ : Fin 128)) = W2 (ix2 k j) := by
  unfold padT pad
  beta_reduce
  split
  · refine congrArg W2 (funext fun a => Fin.ext ?_)
    match a with
    | ⟨0, _⟩ => show (k.val - 0) / (0 + 1) = k.val; omega
    | ⟨1, _⟩ => show (j.val - 0) / (0 + 1) = j.val; omega
  · rename_i hin
    refine absurd (fun a => ?_) hin
    match a with
    | ⟨0, _⟩ => exact ⟨Nat.zero_le _, Nat.mod_one _, by show (k.val - 0) / (0 + 1) < 256; have := k.isLt; omega⟩
    | ⟨1, _⟩ => exact ⟨Nat.zero_le _, Nat.mod_one _, by show (j.val - 0) / (0 + 1) < 64; have := j.isLt; omega⟩

/-- The second product: the left 64 columns of rows of `H` against columns of the padded `W2` are rows of `H` against
    columns of `W2`. -/
theorem slice_prod_eq_dot2 (H : FVec Ideal Cert.KernelIdeal.S50000x256 .f32) (W2 : FVec Ideal Cert.KernelIdeal.S256x64 .f32)
    (h : FTy.bf16.bits < FTy.f32.bits) :
    extractStridedSlice Cert.KernelIdeal.S50000x64 ![0, 0]
        (Cert.Gemm.prod (M := 50000) (K := 256) (N := 128) (truncf (F := Ideal) .bf16 H h) (truncf (F := Ideal) .bf16 (padT W2) h))
        Cert.KernelIdeal.Facts₀.slices_S50000x128_S50000x64_0_0
      = Host.dotGeneral (F := Ideal) Cert.ReferenceIdeal.dot_S50000x256_S256x64_S50000x64_1_0_0_1_n_n none H W2 := by
  rw [Cert.Gemm.host_eq_prod Cert.ReferenceIdeal.dot_S50000x256_S256x64_S50000x64_1_0_0_1_n_n rfl none H W2]
  funext t
  obtain ⟨i, j, rfl⟩ : ∃ (i : Fin 50000) (j : Fin 64), t = ix2 i j := ⟨t 0, t 1, eq_ix2 t⟩
  have hj : j.val < 128 := by have := j.isLt; omega
  rw [extractStridedSlice_apply ![0, 0] _ _ (ix2 i j) (ix2 i (⟨j.val, hj⟩ : Fin 128)) (fun a => by
    match a with
    | ⟨0, _⟩ => show i.val = 0 + i.val; omega
    | ⟨1, _⟩ => show j.val = 0 + j.val; omega)]
  rw [Cert.Gemm.prod_apply, Cert.Gemm.prod_apply]
  refine Finset.sum_congr rfl fun k _ => ?_
  show H (ix2 i k) * padT W2 (ix2 k (⟨j.val, hj⟩ : Fin 128)) = H (ix2 i k) * W2 (ix2 k j)
  rw [padT_apply]

end Cert.Bridge

end
-- ==== Proof.KernelValue.lean ====
/-
  The kernel program's result, as the reference's function of the arguments.

  The program's result buffer ends at the log-softmax of the second aggregation of the left 64 columns of the second
  matrix product; the second product's rows are the rectified first aggregation of the first product.  Each product is
  the host's product of the operands as they are, each aggregation is the reference's aggregation (the weights are
  non-negative numbers other than `+∞`), and the edge words, the weights, the rectifier and the log-softmax are the same
  operations as the reference's.
-/
import proofs.«122016_j61864708932307_2_alg».proof.Proof.KernelWalk
import proofs.«122016_j61864708932307_2_alg».proof.Proof.GemmA
import proofs.«122016_j61864708932307_2_alg».proof.Proof.GemmB
import proofs.«122016_j61864708932307_2_alg».proof.Proof.BridgeForms
import proofs.«122016_j61864708932307_2_alg».proof.Proof.BridgeGemm

set_option maxHeartbeats 1000000

noncomputable section

namespace Cert.Bridge

open Idealize.ShloMosaic Idealize.ShloMosaic.TcCoe Idealize.SL.Sem
open Cert.KernelIdeal Cert.KernelIdeal.Gen Cert.KernelIdeal.Walk

variable (m : (ℓ : Loc nD τ sig) → Buf (Elt Ideal) ℓ) (ρ : Dev nD → PrngReg) (c : Dev nD)

/-- The weights are non-negative numbers other than `+∞`. -/
theorem dinvT_ok (ei : IVec S2x800000 32) (i : S50000.Idx) : 0 ≤ dinvT ei i ∧ dinvT ei i ≠ ⊤ := by
  rw [dinvT_eq]
  exact Cert.Forms.dinvOf_ok _ i

/-- The first matrix product's array is the host's product of `x` and `W1`. -/
theorem first_product :
    (Gen.dat0 (Gen.V3 m ρ) c).arrAt 2 cfg0.N
      = Host.dotGeneral (F := Ideal) (φ₁ := .f32) (φ₂ := .f32) Cert.ReferenceIdeal.dot_S50000x512_S512x256_S50000x256_1_0_0_1_n_n none
          (m ((c : Thread nD τ).loc main_arg0)) (m ((c : Thread nD τ).loc main_arg2)) := by
  rw [Cert.KernelIdeal.Gemm.final0 (Gen.V3 m ρ) c]
  show Cert.Gemm.prod (Gen.V3 m ρ c (Pipeline.arrRef spec0 0)) (Gen.V3 m ρ c (Pipeline.arrRef spec0 1)) = _
  rw [V3_arr0 m ρ c, V3_arr1 m ρ c]
  exact prod_eq_dot1 _ _ _

/-- The first layer's output is the reference's. -/
theorem first_layer :
    midT ((Gen.dat0 (Gen.V3 m ρ) c).arrAt 2 cfg0.N) (m ((c : Thread nD τ).loc main_arg1)) (m ((c : Thread nD τ).loc main_arg3))
      = Cert.RF.relu (addf (Cert.RF.agg256
          (Host.dotGeneral (F := Ideal) (φ₁ := .f32) (φ₂ := .f32) Cert.ReferenceIdeal.dot_S50000x512_S512x256_S50000x256_1_0_0_1_n_n none
            (m ((c : Thread nD τ).loc main_arg0)) (m ((c : Thread nD τ).loc main_arg2)))
          (Cert.RF.dinv (m ((c : Thread nD τ).loc main_arg1))) (Cert.RF.s (m ((c : Thread nD τ).loc main_arg1)))
          (Cert.RF.d (m ((c : Thread nD τ).loc main_arg1)))) (Cert.RF.bias256 (m ((c : Thread nD τ).loc main_arg3)))) := by
  rw [first_product m ρ c]
  unfold midT
  rw [agg1T_eq _ _ (dinvT_ok _) _ _ _, dinvT_eq', sT_eq, dT_eq]
  rfl

/-- The left 64 columns of the second matrix product's array are the host's product of the first layer's output and `W2`. -/
theorem second_product :
    extractStridedSlice S50000x64 ![0, 0] ((Gen.dat1 (Gen.V9 m ρ) c).arrAt 2 cfg1.N) Facts₀.slices_S50000x128_S50000x64_0_0
      = Host.dotGeneral (F := Ideal) (φ₁ := .f32) (φ₂ := .f32) Cert.ReferenceIdeal.dot_S50000x256_S256x64_S50000x64_1_0_0_1_n_n none
          (midT ((Gen.dat0 (Gen.V3 m ρ) c).arrAt 2 cfg0.N) (m ((c : Thread nD τ).loc main_arg1)) (m ((c : Thread nD τ).loc main_arg3)))
          (m ((c : Thread nD τ).loc main_arg4)) := by
  rw [Cert.KernelIdeal.Gemm.final1 (Gen.V9 m ρ) c]
  show extractStridedSlice S50000x64 ![0, 0]
    (Cert.Gemm.prod (Gen.V9 m ρ c (Pipeline.arrRef spec1 0)) (Gen.V9 m ρ c (Pipeline.arrRef spec1 1))) _ = _
  rw [V9_arr0 m ρ c, V9_arr1 m ρ c]
  exact slice_prod_eq_dot2 _ _ _

/-- THE KERNEL PROGRAM'S RESULT is the reference's function of the arguments. -/
theorem kernel_value :
    Gen.W12 m ρ c (Proc.devRef .tc main_v62)
      = Cert.RF.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W12_v62 m ρ c]
  unfold tailT
  rw [lsmT_eq, agg2T_eq _ _ (dinvT_ok _) _ _ _, second_product m ρ c, first_layer m ρ c, dinvT_eq', sT_eq, dT_eq]
  rfl

end Cert.Bridge

end
-- ==== Proof.RefOps.lean ====
/-
  The reference program's @main as the list of its 134 host operations, and its run: every weakly fair execution
  terminates with every buffer at the fold of the operations' results over the launch contents. The list is also cut in six
  consecutive stretches — the edge words, the first product and the weights; the first layer's aggregation, bias and rectifier; the second product; the edge words and the weights, computed again; the second layer's aggregation and bias; the row-wise log-softmax — so that each stretch's result can be read by itself, as a function of
  the buffers the stretch reads.
-/
import proofs.«122016_j61864708932307_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's 134 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf,
    binary main_v47 main_arg4 main_v48 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select,
    nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0xFF800000#32),
    TRef.binary (TRef.of (T := ⟨S50000x64, .f32⟩) main_v90) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v90) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v91) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- On every device, from any memory with zero counters: every weakly fair execution of @main terminates with each buffer
    at the fold of the operations' results over the launch contents. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

/-! ## The six stretches -/

/-- Operations 1 … 22: the edge words, the first product and the weights. -/
abbrev part1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Operations 23 … 63: the first layer's aggregation, bias and rectifier. -/
abbrev part2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x256 ![0, 1] bcast_S850000x1_S850000x256_0_1 : (⟨S850000x1, .f32⟩ : BufTy).Contents (Elt F) → (⟨S850000x256, .f32⟩ : BufTy).Contents (Elt F)),
    binary main_v37 main_v39 main_v40 (mulf : (⟨S850000x256, .f32⟩ : BufTy).Contents (Elt F) → (⟨S850000x256, .f32⟩ : BufTy).Contents (Elt F) → (⟨S850000x256, .f32⟩ : BufTy).Contents (Elt F)),
    nullary main_cst_8 (constant S_ .f32 0x00000000#32),
    unary main_cst_8 main_v41 (broadcastInDim S50000x256 ![] bcast_S_S50000x256 : (⟨S_, .f32⟩ : BufTy).Contents (Elt F) → (⟨S50000x256, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    unary main_arg3 main_v44 (broadcastInDim S1x256 ![1] bcast_S256_S1x256_1 : (⟨S256, .f32⟩ : BufTy).Contents (Elt F) → (⟨S1x256, .f32⟩ : BufTy).Contents (Elt F)),
    unary main_v44 main_v45 (broadcastInDim S50000x256 ![0, 1] bcast_S1x256_S50000x256_0_1 : (⟨S1x256, .f32⟩ : BufTy).Contents (Elt F) → (⟨S50000x256, .f32⟩ : BufTy).Contents (Elt F)),
    binary main_v43 main_v45 main_v46 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v46) (TRef.of (T := ⟨S50000x256, .f32⟩) main_call1_v0) (TRef.of (T := ⟨S50000x256, .f32⟩) main_v47) maximumf ]

/-- Operations 64 … 64: the second product. -/
abbrev part3 : List (HloOp τ sig (Elt F)) :=
  [ binary main_v47 main_arg4 main_v48 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)) ]

/-- Operations 65 … 81: the edge words and the weights, computed again. -/
abbrev part4 : List (HloOp τ sig (Elt F)) :=
  [ nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Operations 82 … 119: the second layer's aggregation and bias. -/
abbrev part5 : List (HloOp τ sig (Elt F)) :=
  [ nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x64 ![0, 1] bcast_S850000x1_S850000x64_0_1 : (⟨S850000x1, .f32⟩ : BufTy).Contents (Elt F) → (⟨S850000x64, .f32⟩ : BufTy).Contents (Elt F)),
    binary main_v81 main_v83 main_v84 (mulf : (⟨S850000x64, .f32⟩ : BufTy).Contents (Elt F) → (⟨S850000x64, .f32⟩ : BufTy).Contents (Elt F) → (⟨S850000x64, .f32⟩ : BufTy).Contents (Elt F)),
    nullary main_cst_19 (constant S_ .f32 0x00000000#32),
    unary main_cst_19 main_v85 (broadcastInDim S50000x64 ![] bcast_S_S50000x64 : (⟨S_, .f32⟩ : BufTy).Contents (Elt F) → (⟨S50000x64, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg5 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v87 main_v89 main_v90 (addf : (⟨S50000x64, .f32⟩ : BufTy).Contents (Elt F) → (⟨S50000x64, .f32⟩ : BufTy).Contents (Elt F) → (⟨S50000x64, .f32⟩ : BufTy).Contents (Elt F)) ]

/-- Operations 120 … 134: the row-wise log-softmax. -/
abbrev part6 : List (HloOp τ sig (Elt F)) :=
  [ TRef.nullary (TRef.of (T := ⟨S_, .f32⟩) main_call3_cst) (constant S_ .f32 0xFF800000#32),
    TRef.binary (TRef.of (T := ⟨S50000x64, .f32⟩) main_v90) (TRef.of (T := ⟨S_, .f32⟩) main_call3_cst) (TRef.of (T := ⟨S50000, .f32⟩) main_call3_v0) (fun x v => Host.reduce FloatOps.maximumf x v reducesTo_S50000x64_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x64, .f32⟩) main_call3_v4) (broadcastInDim S50000x64 ![0, 1] bcast_S50000x1_S50000x64_0_1),
    TRef.binary (TRef.of (T := ⟨S50000x64, .f32⟩) main_v90) (TRef.of (T := ⟨S50000x64, .f32⟩) main_call3_v4) (TRef.of (T := ⟨S50000x64, .f32⟩) main_call3_v5) subf,
    TRef.unary (TRef.of (T := ⟨S50000x64, .f32⟩) main_call3_v5) (TRef.of (T := ⟨S50000x64, .f32⟩) main_call3_v6) Host.exp,
    TRef.nullary (TRef.of (T := ⟨S_, .f32⟩) main_call3_cst_1) (constant S_ .f32 0x00000000#32),
    TRef.binary (TRef.of (T := ⟨S50000x64, .f32⟩) main_call3_v6) (TRef.of (T := ⟨S_, .f32⟩) main_call3_cst_1) (TRef.of (T := ⟨S50000, .f32⟩) main_call3_v7) (fun x v => Host.reduceAdd x v reducesTo_S50000x64_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x64, .f32⟩) main_call3_v10) (broadcastInDim S50000x64 ![0, 1] bcast_S50000x1_S50000x64_0_1),
    TRef.binary (TRef.of (T := ⟨S50000x64, .f32⟩) main_call3_v5) (TRef.of (T := ⟨S50000x64, .f32⟩) main_call3_v10) (TRef.of (T := ⟨S50000x64, .f32⟩) main_v91) subf ]

set_option maxRecDepth 8192 in
theorem ops_parts : (ops : List (HloOp τ sig (Elt F))) = part1 ++ (part2 ++ (part3 ++ (part4 ++ (part5 ++ part6)))) := rfl

end Cert.ReferenceIdeal.Ops

end
-- ==== Proof.RefEvalCast.lean ====
/-
  Contents of a buffer moved between the buffer's own type and the type its value is written at.

  An operation of a called function names its operands by buffers that carry the type of the value they hold; the
  operation reads an operand's contents at that type and writes its result back at the buffer's own type.  The two
  types are one type, so moving contents there and back gives the contents again.
-/
import proofs.«122016_j61864708932307_2_alg».proof.Proof.RefOps

set_option maxRecDepth 16384

noncomputable section

open Idealize.ShloMosaic Idealize.ShloMosaic.TcCoe Idealize.SL.Sem Idealize.ShloMosaic.StableHlo

namespace Cert.ReferenceIdeal.Eval

open Cert.ReferenceIdeal Cert.ReferenceIdeal.Gen Cert.ReferenceIdeal.Ops

/-- Contents moved to a buffer's own type and back are the contents. -/
theorem ofBuf_toBuf {sg : RefSig} {Val : EltTy → Type} {T : BufTy} (x : TRef sg T) (v : T.Contents Val) :
    x.ofBuf (x.toBuf v) = v := by
  obtain ⟨r, h, h2, h3⟩ := x
  subst h
  rfl

end Cert.ReferenceIdeal.Eval

end
-- ==== Proof.RefEvalA.lean ====
/-
  The reference program's first three stretches, each read as a function of the buffers it reads, at the extended reals.

  Stretch 1 cuts the edge list into its two rows, multiplies the features by the first weight matrix, appends the
  self loops to the source and the target words, counts the degrees and takes `1/√deg` where the degree is positive.
  Stretch 2 is the first layer's aggregation (gather the source rows, scale each by its edge weight, add up at the
  targets), the bias and the rectifier.  Stretch 3 is the second product.  Each result is the named function of
  `Cert.RF` of the stretch's inputs; a buffer a stretch does not write keeps its contents.
-/
import proofs.«122016_j61864708932307_2_alg».proof.Proof.RefOps
import proofs.«122016_j61864708932307_2_alg».proof.Proof.FormsDefs
import proofs.«122016_j61864708932307_2_alg».proof.Proof.RefEvalCast

set_option maxRecDepth 16384

noncomputable section

open Idealize.ShloMosaic Idealize.ShloMosaic.TcCoe Idealize.SL.Sem Idealize.ShloMosaic.StableHlo

namespace Cert.ReferenceIdeal.Eval

open Cert.ReferenceIdeal Cert.ReferenceIdeal.Gen Cert.ReferenceIdeal.Ops

variable (V : Valuation τ sig (Elt Ideal))

/-! Contents of a literal buffer read at, or written from, the buffer's literal type: the same contents. -/
theorem rd_v13 (v : IVec S50000 1) : (TRef.of (T := ⟨S50000, .i1⟩) main_v13).ofBuf (Val := Elt Ideal) v = v := rfl
theorem rd_v14 (v : FVec Ideal S50000 .f32) : (TRef.of (T := ⟨S50000, .f32⟩) main_v14).ofBuf (Val := Elt Ideal) v = v := rfl
theorem rd_cst_2 (v : FVec Ideal S_ .f32) : (TRef.of (T := ⟨S_, .f32⟩) main_cst_2).ofBuf (Val := Elt Ideal) v = v := rfl
theorem wr_v15 (v : FVec Ideal S50000 .f32) : (TRef.of (T := ⟨S50000, .f32⟩) main_v15).toBuf (Val := Elt Ideal) v = v := rfl
theorem rd_v46 (v : FVec Ideal S50000x256 .f32) : (TRef.of (T := ⟨S50000x256, .f32⟩) main_v46).ofBuf (Val := Elt Ideal) v = v := rfl
theorem wr_v47 (v : FVec Ideal S50000x256 .f32) : (TRef.of (T := ⟨S50000x256, .f32⟩) main_v47).toBuf (Val := Elt Ideal) v = v := rfl

/-! ## Stretch 1 -/

/-- The first product. -/
theorem part1_v4 : (after (part1 (F := Ideal)) V (Proc.devRef .tc main_v4) : FVec Ideal S50000x256 .f32)
    = Host.dotGeneral (F := Ideal) (φ₁ := .f32) (φ₂ := .f32) dot_S50000x512_S512x256_S50000x256_1_0_0_1_n_n none
        (V (Proc.devRef .tc main_arg0)) (V (Proc.devRef .tc main_arg2)) := by
  after_results <;> rfl

/-- The two rows of the edge list. -/
theorem part1_v1 : after (part1 (F := Ideal)) V (Proc.devRef .tc main_v1) = RF.row0 (V (Proc.devRef .tc main_arg1)) := by
  after_results <;> rfl
theorem part1_v3 : after (part1 (F := Ideal)) V (Proc.devRef .tc main_v3) = RF.row1 (V (Proc.devRef .tc main_arg1)) := by
  after_results <;> rfl

/-- The source and the target words. -/
theorem part1_v6 : after (part1 (F := Ideal)) V (Proc.devRef .tc main_v6) = RF.s (V (Proc.devRef .tc main_arg1)) := by
  after_results <;> rfl
theorem part1_v7 : after (part1 (F := Ideal)) V (Proc.devRef .tc main_v7) = RF.d (V (Proc.devRef .tc main_arg1)) := by
  after_results <;> rfl

/-- The weights. -/
theorem part1_v15 : after (part1 (F := Ideal)) V (Proc.devRef .tc main_v15) = RF.dinv (V (Proc.devRef .tc main_arg1)) := by
  after_results
  simp only [ofBuf_toBuf, rd_v13, rd_v14, rd_cst_2, wr_v15]
  unfold RF.dinv RF.dinvOf RF.degOf RF.d RF.cat RF.row1 RF.col
  rfl

theorem part1_keep_arg0 : after (part1 (F := Ideal)) V (Proc.devRef .tc main_arg0) = V (Proc.devRef .tc main_arg0) := by
  after_results <;> rfl
theorem part1_keep_arg1 : after (part1 (F := Ideal)) V (Proc.devRef .tc main_arg1) = V (Proc.devRef .tc main_arg1) := by
  after_results <;> rfl
theorem part1_keep_arg2 : after (part1 (F := Ideal)) V (Proc.devRef .tc main_arg2) = V (Proc.devRef .tc main_arg2) := by
  after_results <;> rfl
theorem part1_keep_arg3 : after (part1 (F := Ideal)) V (Proc.devRef .tc main_arg3) = V (Proc.devRef .tc main_arg3) := by
  after_results <;> rfl
theorem part1_keep_arg4 : after (part1 (F := Ideal)) V (Proc.devRef .tc main_arg4) = V (Proc.devRef .tc main_arg4) := by
  after_results <;> rfl
theorem part1_keep_arg5 : after (part1 (F := Ideal)) V (Proc.devRef .tc main_arg5) = V (Proc.devRef .tc main_arg5) := by
  after_results <;> rfl

/-! ## Stretch 2 -/

/-- The first layer: aggregation, bias, rectifier. -/
theorem part2_v47 : (after (part2 (F := Ideal)) V (Proc.devRef .tc main_v47) : FVec Ideal S50000x256 .f32)
    = RF.relu (addf (RF.agg256 (V (Proc.devRef .tc main_v4)) (V (Proc.devRef .tc main_v15)) (V (Proc.devRef .tc main_v6)) (V (Proc.devRef .tc main_v7)))
        (RF.bias256 (V (Proc.devRef .tc main_arg3)))) := by
  after_results_simp
  simp only [ofBuf_toBuf, rd_v46, wr_v47]
  unfold RF.relu RF.agg256 RF.bias256 RF.norm RF.wrap RF.col
  rfl

theorem part2_keep_v1 : after (part2 (F := Ideal)) V (Proc.devRef .tc main_v1) = V (Proc.devRef .tc main_v1) := by
  after_results <;> rfl
theorem part2_keep_v3 : after (part2 (F := Ideal)) V (Proc.devRef .tc main_v3) = V (Proc.devRef .tc main_v3) := by
  after_results <;> rfl
theorem part2_keep_arg0 : after (part2 (F := Ideal)) V (Proc.devRef .tc main_arg0) = V (Proc.devRef .tc main_arg0) := by
  after_results <;> rfl
theorem part2_keep_arg1 : after (part2 (F := Ideal)) V (Proc.devRef .tc main_arg1) = V (Proc.devRef .tc main_arg1) := by
  after_results <;> rfl
theorem part2_keep_arg2 : after (part2 (F := Ideal)) V (Proc.devRef .tc main_arg2) = V (Proc.devRef .tc main_arg2) := by
  after_results <;> rfl
theorem part2_keep_arg3 : after (part2 (F := Ideal)) V (Proc.devRef .tc main_arg3) = V (Proc.devRef .tc main_arg3) := by
  after_results <;> rfl
theorem part2_keep_arg4 : after (part2 (F := Ideal)) V (Proc.devRef .tc main_arg4) = V (Proc.devRef .tc main_arg4) := by
  after_results <;> rfl
theorem part2_keep_arg5 : after (part2 (F := Ideal)) V (Proc.devRef .tc main_arg5) = V (Proc.devRef .tc main_arg5) := by
  after_results <;> rfl

/-! ## Stretch 3 -/

/-- The second product. -/
theorem part3_v48 : (after (part3 (F := Ideal)) V (Proc.devRef .tc main_v48) : FVec Ideal S50000x64 .f32)
    = Host.dotGeneral (F := Ideal) (φ₁ := .f32) (φ₂ := .f32) dot_S50000x256_S256x64_S50000x64_1_0_0_1_n_n none
        (V (Proc.devRef .tc main_v47)) (V (Proc.devRef .tc main_arg4)) := by
  after_results <;> rfl

theorem part3_keep_v1 : after (part3 (F := Ideal)) V (Proc.devRef .tc main_v1) = V (Proc.devRef .tc main_v1) := by
  after_results <;> rfl
theorem part3_keep_v3 : after (part3 (F := Ideal)) V (Proc.devRef .tc main_v3) = V (Proc.devRef .tc main_v3) := by
  after_results <;> rfl
theorem part3_keep_arg0 : after (part3 (F := Ideal)) V (Proc.devRef .tc main_arg0) = V (Proc.devRef .tc main_arg0) := by
  after_results <;> rfl
theorem part3_keep_arg1 : after (part3 (F := Ideal)) V (Proc.devRef .tc main_arg1) = V (Proc.devRef .tc main_arg1) := by
  after_results <;> rfl
theorem part3_keep_arg2 : after (part3 (F := Ideal)) V (Proc.devRef .tc main_arg2) = V (Proc.devRef .tc main_arg2) := by
  after_results <;> rfl
theorem part3_keep_arg3 : after (part3 (F := Ideal)) V (Proc.devRef .tc main_arg3) = V (Proc.devRef .tc main_arg3) := by
  after_results <;> rfl
theorem part3_keep_arg4 : after (part3 (F := Ideal)) V (Proc.devRef .tc main_arg4) = V (Proc.devRef .tc main_arg4) := by
  after_results <;> rfl
theorem part3_keep_arg5 : after (part3 (F := Ideal)) V (Proc.devRef .tc main_arg5) = V (Proc.devRef .tc main_arg5) := by
  after_results <;> rfl

end Cert.ReferenceIdeal.Eval

end
-- ==== Proof.RefEvalB.lean ====
/-
  The reference program's last three stretches, each read as a function of the buffers it reads, at the extended reals.

  Stretch 4 appends the self loops to the source and the target words again and computes the weights `1/√deg` again.
  Stretch 5 is the second layer's aggregation and bias.  Stretch 6 is the row-wise log-softmax: each row minus its
  maximum, minus the logarithm of the sum of the exponentials of that.  Each result is the named function of
  `Cert.RF` of the stretch's inputs; a buffer a stretch does not write keeps its contents.
-/
import proofs.«122016_j61864708932307_2_alg».proof.Proof.RefOps
import proofs.«122016_j61864708932307_2_alg».proof.Proof.FormsDefs
import proofs.«122016_j61864708932307_2_alg».proof.Proof.RefEvalCast

set_option maxRecDepth 16384

noncomputable section

open Idealize.ShloMosaic Idealize.ShloMosaic.TcCoe Idealize.SL.Sem Idealize.ShloMosaic.StableHlo

namespace Cert.ReferenceIdeal.Eval

open Cert.ReferenceIdeal Cert.ReferenceIdeal.Gen Cert.ReferenceIdeal.Ops

variable (V : Valuation τ sig (Elt Ideal))

/-! Contents of a literal buffer read at, or written from, the buffer's literal type: the same contents. -/
theorem rd_v57 (v : IVec S50000 1) : (TRef.of (T := ⟨S50000, .i1⟩) main_v57).ofBuf (Val := Elt Ideal) v = v := rfl
theorem rd_v58 (v : FVec Ideal S50000 .f32) : (TRef.of (T := ⟨S50000, .f32⟩) main_v58).ofBuf (Val := Elt Ideal) v = v := rfl
theorem rd_cst_12 (v : FVec Ideal S_ .f32) : (TRef.of (T := ⟨S_, .f32⟩) main_cst_12).ofBuf (Val := Elt Ideal) v = v := rfl
theorem wr_v59 (v : FVec Ideal S50000 .f32) : (TRef.of (T := ⟨S50000, .f32⟩) main_v59).toBuf (Val := Elt Ideal) v = v := rfl
theorem rd_v90 (v : FVec Ideal S50000x64 .f32) : (TRef.of (T := ⟨S50000x64, .f32⟩) main_v90).ofBuf (Val := Elt Ideal) v = v := rfl
theorem wr_v91 (v : FVec Ideal S50000x64 .f32) : (TRef.of (T := ⟨S50000x64, .f32⟩) main_v91).toBuf (Val := Elt Ideal) v = v := rfl

/-! ## Stretch 4 -/

/-- The source and the target words, from the two rows of the edge list. -/
theorem part4_v50 : after (part4 (F := Ideal)) V (Proc.devRef .tc main_v50) = RF.cat (V (Proc.devRef .tc main_v1)) := by
  after_results <;> rfl
theorem part4_v51 : after (part4 (F := Ideal)) V (Proc.devRef .tc main_v51) = RF.cat (V (Proc.devRef .tc main_v3)) := by
  after_results <;> rfl

/-- The weights, from the target row. -/
theorem part4_v59 : after (part4 (F := Ideal)) V (Proc.devRef .tc main_v59) = RF.dinvOf (RF.cat (V (Proc.devRef .tc main_v3))) := by
  after_results_simp
  simp only [ofBuf_toBuf, rd_v57, rd_v58, rd_cst_12, wr_v59]
  unfold RF.dinvOf RF.degOf RF.cat RF.col
  rfl

theorem part4_keep_v48 : after (part4 (F := Ideal)) V (Proc.devRef .tc main_v48) = V (Proc.devRef .tc main_v48) := by
  after_results <;> rfl
theorem part4_keep_arg0 : after (part4 (F := Ideal)) V (Proc.devRef .tc main_arg0) = V (Proc.devRef .tc main_arg0) := by
  after_results <;> rfl
theorem part4_keep_arg1 : after (part4 (F := Ideal)) V (Proc.devRef .tc main_arg1) = V (Proc.devRef .tc main_arg1) := by
  after_results <;> rfl
theorem part4_keep_arg2 : after (part4 (F := Ideal)) V (Proc.devRef .tc main_arg2) = V (Proc.devRef .tc main_arg2) := by
  after_results <;> rfl
theorem part4_keep_arg3 : after (part4 (F := Ideal)) V (Proc.devRef .tc main_arg3) = V (Proc.devRef .tc main_arg3) := by
  after_results <;> rfl
theorem part4_keep_arg4 : after (part4 (F := Ideal)) V (Proc.devRef .tc main_arg4) = V (Proc.devRef .tc main_arg4) := by
  after_results <;> rfl
theorem part4_keep_arg5 : after (part4 (F := Ideal)) V (Proc.devRef .tc main_arg5) = V (Proc.devRef .tc main_arg5) := by
  after_results <;> rfl

/-! ## Stretch 5 -/

/-- The second layer: aggregation and bias. -/
theorem part5_v90 : (after (part5 (F := Ideal)) V (Proc.devRef .tc main_v90) : FVec Ideal S50000x64 .f32)
    = addf (RF.agg64 (V (Proc.devRef .tc main_v48)) (V (Proc.devRef .tc main_v59)) (V (Proc.devRef .tc main_v50)) (V (Proc.devRef .tc main_v51)))
        (RF.bias64 (V (Proc.devRef .tc main_arg5))) := by
  after_results_simp
  unfold RF.agg64 RF.bias64 RF.norm RF.wrap RF.col
  rfl

theorem part5_keep_arg0 : after (part5 (F := Ideal)) V (Proc.devRef .tc main_arg0) = V (Proc.devRef .tc main_arg0) := by
  after_results <;> rfl
theorem part5_keep_arg1 : after (part5 (F := Ideal)) V (Proc.devRef .tc main_arg1) = V (Proc.devRef .tc main_arg1) := by
  after_results <;> rfl
theorem part5_keep_arg2 : after (part5 (F := Ideal)) V (Proc.devRef .tc main_arg2) = V (Proc.devRef .tc main_arg2) := by
  after_results <;> rfl
theorem part5_keep_arg3 : after (part5 (F := Ideal)) V (Proc.devRef .tc main_arg3) = V (Proc.devRef .tc main_arg3) := by
  after_results <;> rfl
theorem part5_keep_arg4 : after (part5 (F := Ideal)) V (Proc.devRef .tc main_arg4) = V (Proc.devRef .tc main_arg4) := by
  after_results <;> rfl
theorem part5_keep_arg5 : after (part5 (F := Ideal)) V (Proc.devRef .tc main_arg5) = V (Proc.devRef .tc main_arg5) := by
  after_results <;> rfl

/-! ## Stretch 6 -/

/-- The row-wise log-softmax. -/
theorem part6_v91 : after (part6 (F := Ideal)) V (Proc.devRef .tc main_v91) = RF.lsm (V (Proc.devRef .tc main_v90)) := by
  after_results
  simp only [ofBuf_toBuf, rd_v90, wr_v91]
  unfold RF.lsm RF.shifted
  rfl

theorem part6_keep_arg0 : after (part6 (F := Ideal)) V (Proc.devRef .tc main_arg0) = V (Proc.devRef .tc main_arg0) := by
  after_results <;> rfl
theorem part6_keep_arg1 : after (part6 (F := Ideal)) V (Proc.devRef .tc main_arg1) = V (Proc.devRef .tc main_arg1) := by
  after_results <;> rfl
theorem part6_keep_arg2 : after (part6 (F := Ideal)) V (Proc.devRef .tc main_arg2) = V (Proc.devRef .tc main_arg2) := by
  after_results <;> rfl
theorem part6_keep_arg3 : after (part6 (F := Ideal)) V (Proc.devRef .tc main_arg3) = V (Proc.devRef .tc main_arg3) := by
  after_results <;> rfl
theorem part6_keep_arg4 : after (part6 (F := Ideal)) V (Proc.devRef .tc main_arg4) = V (Proc.devRef .tc main_arg4) := by
  after_results <;> rfl
theorem part6_keep_arg5 : after (part6 (F := Ideal)) V (Proc.devRef .tc main_arg5) = V (Proc.devRef .tc main_arg5) := by
  after_results <;> rfl

end Cert.ReferenceIdeal.Eval

end
-- ==== Proof.RefEval.lean ====
/-
  The reference program's value: after its 134 operations the result buffer holds `Cert.RF.result` of the six
  arguments, and every argument is as it was.

  The operations are the six stretches run one after the other, so what a buffer holds at the end is read stretch by
  stretch, backwards from the result: the log-softmax of the second layer's output, which is the aggregation of the
  second product, whose left operand is the rectified first layer, and so on down to the arguments; between the
  stretch that writes a buffer and the stretch that reads it the buffer keeps its contents.  The run then re-states
  this over the memory the program is launched from.
-/
import proofs.«122016_j61864708932307_2_alg».proof.Proof.RefEvalA
import proofs.«122016_j61864708932307_2_alg».proof.Proof.RefEvalB
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Eval

open Cert.ReferenceIdeal Cert.ReferenceIdeal.Gen Cert.ReferenceIdeal.Ops

variable (V : Valuation τ sig (Elt Ideal))

/-- The operations are the six stretches run one after the other. -/
theorem after_ops : after (ops (F := Ideal)) V
    = after (part6 (F := Ideal)) (after (part5 (F := Ideal)) (after (part4 (F := Ideal)) (after (part3 (F := Ideal))
        (after (part2 (F := Ideal)) (after (part1 (F := Ideal)) V))))) := by
  rw [ops_parts, after_append, after_append, after_append, after_append, after_append]

/-- THE RESULT: after all the operations the result buffer holds the reference's function of the six arguments. -/
theorem ref_value : (after (ops (F := Ideal)) V (Proc.devRef .tc main_v91) : FVec Ideal S50000x64 .f32)
    = RF.result (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [after_ops]
  rw [part6_v91, part5_v90]
  rw [part4_keep_v48, part4_v59, part4_v50, part4_v51, part4_keep_arg5]
  rw [part3_v48, part3_keep_v3, part3_keep_v1, part3_keep_arg5]
  rw [part2_v47, part2_keep_arg4, part2_keep_v3, part2_keep_v1, part2_keep_arg5]
  rw [part1_v4, part1_v15, part1_v6, part1_v7, part1_keep_arg3, part1_keep_arg4, part1_v3, part1_v1, part1_keep_arg5]
  unfold RF.result RF.dinv RF.s RF.d
  rfl

/-! No operation writes an argument. -/
theorem ops_keep_arg0 : after (ops (F := Ideal)) V (Proc.devRef .tc main_arg0) = V (Proc.devRef .tc main_arg0) := by
  rw [after_ops, part6_keep_arg0, part5_keep_arg0, part4_keep_arg0, part3_keep_arg0, part2_keep_arg0, part1_keep_arg0]
theorem ops_keep_arg1 : after (ops (F := Ideal)) V (Proc.devRef .tc main_arg1) = V (Proc.devRef .tc main_arg1) := by
  rw [after_ops, part6_keep_arg1, part5_keep_arg1, part4_keep_arg1, part3_keep_arg1, part2_keep_arg1, part1_keep_arg1]
theorem ops_keep_arg2 : after (ops (F := Ideal)) V (Proc.devRef .tc main_arg2) = V (Proc.devRef .tc main_arg2) := by
  rw [after_ops, part6_keep_arg2, part5_keep_arg2, part4_keep_arg2, part3_keep_arg2, part2_keep_arg2, part1_keep_arg2]
theorem ops_keep_arg3 : after (ops (F := Ideal)) V (Proc.devRef .tc main_arg3) = V (Proc.devRef .tc main_arg3) := by
  rw [after_ops, part6_keep_arg3, part5_keep_arg3, part4_keep_arg3, part3_keep_arg3, part2_keep_arg3, part1_keep_arg3]
theorem ops_keep_arg4 : after (ops (F := Ideal)) V (Proc.devRef .tc main_arg4) = V (Proc.devRef .tc main_arg4) := by
  rw [after_ops, part6_keep_arg4, part5_keep_arg4, part4_keep_arg4, part3_keep_arg4, part2_keep_arg4, part1_keep_arg4]
theorem ops_keep_arg5 : after (ops (F := Ideal)) V (Proc.devRef .tc main_arg5) = V (Proc.devRef .tc main_arg5) := by
  rw [after_ops, part6_keep_arg5, part5_keep_arg5, part4_keep_arg5, part3_keep_arg5, part2_keep_arg5, part1_keep_arg5]

/-- THE RUN: from any memory with zero counters every weakly fair execution of the reference terminates with the
    result buffer at `Cert.RF.result` of the launch contents of the six arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91)
        = Cert.RF.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun r h c =>
    ⟨(h c main_v91).trans (ref_value (launchContents m c)),
      (h c main_arg0).trans (ops_keep_arg0 (launchContents m c)),
      (h c main_arg1).trans (ops_keep_arg1 (launchContents m c)),
      (h c main_arg2).trans (ops_keep_arg2 (launchContents m c)),
      (h c main_arg3).trans (ops_keep_arg3 (launchContents m c)),
      (h c main_arg4).trans (ops_keep_arg4 (launchContents m c)),
      (h c main_arg5).trans (ops_keep_arg5 (launchContents m c))⟩)
    (Ops.run_raw (F := Ideal) m ρ)

end Cert.ReferenceIdeal.Eval

end
-- ==== Proof.lean ====
/-
  A two-layer graph convolution: each layer multiplies the row features by a weight matrix, then replaces every row
  by the sum, over the edges that point at it (a self loop added to every row), of the source row scaled by
  `1/√(deg src · deg tgt)`, adds a bias, and the first layer is rectified; the result is the row-wise log-softmax.

  The kernel program computes the two matrix products in row blocks of 2000 (the second against the weight matrix padded
  with 64 zero columns, of which the left 64 columns of the product are kept) and scales by `1/√deg` once per row before
  the edge rows are gathered and once per row after they are added up; the reference multiplies on the host and scales
  every gathered edge row by the product of the two weights.  Over the extended reals the blocks of a product are the
  product's blocks, a zero column contributes nothing to the kept columns, a change of float format is the identity, and
  a factor that is a non-negative number other than `+∞` moves across a finite sum — and `1/√deg` guarded by `deg > 0`
  is such a number whatever `deg` is — so both programs end at one function of the arguments (`Cert.RF.result`):
  the kernel program by `Cert.Bridge.kernel_value` over its run with the result buffer named, the reference by its run
  read stretch by stretch.  No rewrite was applied in printing the idealized kernel, so `preserves` has nothing to state.
-/
import proofs.«122016_j61864708932307_2_alg».proof.Defs
import proofs.«122016_j61864708932307_2_alg».proof.Proof.Gen.Kernel
import proofs.«122016_j61864708932307_2_alg».proof.Proof.Gen.Kernel.Frame
import proofs.«122016_j61864708932307_2_alg».proof.Proof.Gen.KernelIdeal
import proofs.«122016_j61864708932307_2_alg».proof.Proof.Gen.KernelIdeal.Frame
import proofs.«122016_j61864708932307_2_alg».proof.Proof.Gen.ReferenceIdeal
import proofs.«122016_j61864708932307_2_alg».proof.Proof.Gen.Pre_finite_inputs
import proofs.«122016_j61864708932307_2_alg».proof.Proof.KernelRun
import proofs.«122016_j61864708932307_2_alg».proof.Proof.KernelValue
import proofs.«122016_j61864708932307_2_alg».proof.Proof.RefEval
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Eval.run m ρ)

/-- From memories that agree on the arguments both idealized programs end with the result buffer at the same function
    of the arguments. -/
theorem algebraic : Cert.algebraic_KernelIdeal_ReferenceIdeal := by
  intro m ρ m' ρ' _ hagree
  refine ⟨fun c => Cert.RF.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.kernel_value m ρ c), (h c).2⟩)
      (Cert.KernelIdeal.RunV.run_value (F := Ideal) m ρ)
  · refine (θ_run Cert.ReferenceIdeal.defs _ _).mono (fun _ h c => ⟨(h c).1.trans ?_, (h c).2⟩)
      (Cert.ReferenceIdeal.Eval.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
